-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x32 : Shape := ⟨2, ![800000, 32]⟩
abbrev S256x32 : Shape := ⟨2, ![256, 32]⟩
abbrev S50000 : Shape := ⟨1, ![50000]⟩
abbrev S96x64 : Shape := ⟨2, ![96, 64]⟩
abbrev S64 : Shape := ⟨1, ![64]⟩
abbrev S160x64 : Shape := ⟨2, ![160, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S256x32 : S_.BroadcastsInDim S256x32 (![] : Fin 0 → Fin S256x32.rank)
  reducesTo_S256x32_S_d0_1 : S256x32.ReducesTo [0, 1] S_
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S160x64 : S_.BroadcastsInDim S160x64 (![] : Fin 0 → Fin S160x64.rank)
  reducesTo_S160x64_S_d0_1 : S160x64.ReducesTo [0, 1] S_

variable [Facts]

def fn_part1 {F : FTy → Type} [FloatOps F] (main_arg6 : FVec F S64 .f32) (main_arg7 : FVec F S160x64 .f32) (main_arg8 : FVec F S64 .f32) (main_v13 : IVec S_ 1) (main_v16 : IVec S96x64 1) : IVec S_ 1 :=
  let main_c_5 : IVec S_ 1 := constantI S_ 1 1#1
  let main_v17 : IVec S_ 1 := (fun x v => Host.reduce IntOp.andi x v reducesTo_S96x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S160x64 .f32 := Host.absf main_arg7
  let main_cst_8 : FVec F S_ .f32 := constant S_ .f32 0x7F800000#32
  let main_v25 : FVec F S160x64 .f32 := broadcastInDim S160x64 ![] bcast_S_S160x64 main_cst_8
  let main_v26 : IVec S160x64 1 := cmpf .olt main_v24 main_v25
  let main_c_9 : IVec S_ 1 := constantI S_ 1 1#1
  let main_v27 : IVec S_ 1 := (fun x v => Host.reduce IntOp.andi x v reducesTo_S160x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x64 .f32) (main_arg1 : IVec S2x800000 32) (main_arg2 : FVec F S800000x32 .f32) (main_arg3 : FVec F S256x32 .f32) (main_arg4 : IVec S50000 32) (main_arg5 : FVec F S96x64 .f32) (main_arg6 : FVec F S64 .f32) (main_arg7 : FVec F S160x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S256x32 .f32 := Host.absf main_arg3
  let main_cst_2 : FVec F S_ .f32 := constant S_ .f32 0x7F800000#32
  let main_v10 : FVec F S256x32 .f32 := broadcastInDim S256x32 ![] bcast_S_S256x32 main_cst_2
  let main_v11 : IVec S256x32 1 := cmpf .olt main_v9 main_v10
  let main_c_3 : IVec S_ 1 := constantI S_ 1 1#1
  let main_v12 : IVec S_ 1 := (fun x v => Host.reduce IntOp.andi x v reducesTo_S256x32_S_d0_1 h_S_) main_v11 main_c_3
  let main_v13 : IVec S_ 1 := andi main_v8 main_v12
  let main_v14 : FVec F S96x64 .f32 := Host.absf main_arg5
  let main_cst_4 : FVec F S_ .f32 := constant S_ .f32 0x7F800000#32
  let main_v15 : FVec F S96x64 .f32 := broadcastInDim S96x64 ![] bcast_S_S96x64 main_cst_4
  let main_v16 : IVec S96x64 1 := cmpf .olt main_v14 main_v15
  fn_part1 (F := F) main_arg6 main_arg7 main_arg8 main_v13 main_v16
-- ==== Kernel.lean ====
abbrev S50000x64 : Shape := ⟨2, ![50000, 64]⟩
abbrev S2x800000 : Shape := ⟨2, ![2, 800000]⟩
abbrev S800000x32 : Shape := ⟨2, ![800000, 32]⟩
abbrev S256x32 : Shape := ⟨2, ![256, 32]⟩
abbrev S50000 : Shape := ⟨1, ![50000]⟩
abbrev S96x64 : Shape := ⟨2, ![96, 64]⟩
abbrev S64 : Shape := ⟨1, ![64]⟩
abbrev S160x64 : Shape := ⟨2, ![160, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S50000x32 : Shape := ⟨2, ![50000, 32]⟩
abbrev S64x64 : Shape := ⟨2, ![64, 64]⟩
abbrev S32x64 : Shape := ⟨2, ![32, 64]⟩
abbrev S1x64 : Shape := ⟨2, ![1, 64]⟩
abbrev S8000x64 : Shape := ⟨2, ![8000, 64]⟩
abbrev S8000x32 : Shape := ⟨2, ![8000, 32]⟩
abbrev S5000x64 : Shape := ⟨2, ![5000, 64]⟩
abbrev S5000x32 : Shape := ⟨2, ![5000, 32]⟩

abbrev nBuf : Space → Nat
  | .hbm => 44
  | .vmem => 21
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S256x32, .f32⟩
  | .hbm, ⟨4, _⟩ => ⟨S50000, .i32⟩
  | .hbm, ⟨5, _⟩ => ⟨S96x64, .f32⟩
  | .hbm, ⟨6, _⟩ => ⟨S64, .f32⟩
  | .hbm, ⟨7, _⟩ => ⟨S160x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .i32⟩
  | .hbm, ⟨23, _⟩ => ⟨S50000, .i32⟩
  | .hbm, ⟨24, _⟩ => ⟨S50000, .i1⟩
  | .hbm, ⟨25, _⟩ => ⟨S_, .i32⟩
  | .hbm, ⟨26, _⟩ => ⟨S50000, .i32⟩
  | .hbm, ⟨27, _⟩ => ⟨S50000, .i32⟩
  | .hbm, ⟨28, _⟩ => ⟨S50000, .i32⟩
  | .hbm, ⟨29, _⟩ => ⟨S50000x1, .i32⟩
  | .hbm, ⟨30, _⟩ => ⟨S50000x32, .f32⟩
  | .hbm, ⟨31, _⟩ => ⟨S64x64, .f32⟩
  | .hbm, ⟨32, _⟩ => ⟨S32x64, .f32⟩
  | .hbm, ⟨33, _⟩ => ⟨S1x64, .f32⟩
  | .hbm, ⟨34, _⟩ => ⟨S800000x64, .f32⟩
  | .hbm, ⟨35, _⟩ => ⟨S_, .f32⟩
  | .hbm, ⟨36, _⟩ => ⟨S50000x64, .f32⟩
  | .hbm, ⟨37, _⟩ => ⟨S800000x1, .i32⟩
  | .hbm, ⟨38, _⟩ => ⟨S50000x64, .f32⟩
  | .hbm, ⟨39, _⟩ => ⟨S64x64, .f32⟩
  | .hbm, ⟨40, _⟩ => ⟨S64x64, .f32⟩
  | .hbm, ⟨41, _⟩ => ⟨S32x64, .f32⟩
  | .hbm, ⟨42, _⟩ => ⟨S1x64, .f32⟩
  | .hbm, ⟨43, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x32, .f32⟩
  | .local _ .vmem, ⟨3, _⟩ => ⟨S8000x32, .f32⟩
  | .local _ .vmem, ⟨4, _⟩ => ⟨S64x64, .f32⟩
  | .local _ .vmem, ⟨5, _⟩ => ⟨S32x64, .f32⟩
  | .local _ .vmem, ⟨6, _⟩ => ⟨S1x64, .f32⟩
  | .local _ .vmem, ⟨7, _⟩ => ⟨S8000x64, .f32⟩
  | .local _ .vmem, ⟨8, _⟩ => ⟨S8000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x32, .f32⟩
  | .local _ .vmem, ⟨14, _⟩ => ⟨S5000x32, .f32⟩
  | .local _ .vmem, ⟨15, _⟩ => ⟨S64x64, .f32⟩
  | .local _ .vmem, ⟨16, _⟩ => ⟨S64x64, .f32⟩
  | .local _ .vmem, ⟨17, _⟩ => ⟨S32x64, .f32⟩
  | .local _ .vmem, ⟨18, _⟩ => ⟨S1x64, .f32⟩
  | .local _ .vmem, ⟨19, _⟩ => ⟨S5000x64, .f32⟩
  | .local _ .vmem, ⟨20, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000 : S_.BroadcastsInDim S50000 (![] : Fin 0 → Fin S50000.rank)
  bcast_S50000_S50000x1_0 : S50000.BroadcastsInDim S50000x1 (![0] : Fin 1 → Fin S50000x1.rank)
  slices_S96x64_S64x64_0_0 : S96x64.Slices ![0, 0] S64x64
  slices_S96x64_S32x64_64_0 : S96x64.Slices ![64, 0] S32x64
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bitsLt_bf16_f32 : FTy.bits .bf16 < FTy.bits .f32
  inb_S8000x32_S8000x32_0_0 : ∀ a, (![0, 0] : Fin 2 → Nat) a + S8000x32.size a ≤ S8000x32.size a
  h_S8000x32 : 0 < S8000x32.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S50000x64 : S_.BroadcastsInDim S50000x64 (![] : Fin 0 → Fin S50000x64.rank)
  slices_S160x64_S64x64_0_0 : S160x64.Slices ![0, 0] S64x64
  slices_S160x64_S64x64_64_0 : S160x64.Slices ![64, 0] S64x64
  slices_S160x64_S32x64_128_0 : S160x64.Slices ![128, 0] S32x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  gather_S256x32_S50000x1_S50000x32_1_0_n_n_0_1_132_wf : GatherDims.WF S256x32 S50000x1 S50000x32 [1] [0] [] [0] [] 1 ![1, 32]
  dot_S8000x64_S64x64_S8000x64_1_0_0_1_n_n_wf : DotDims.WF S8000x64 S64x64 S8000x64 [1] [0] [0] [1] [] []
  dot_S8000x32_S32x64_S8000x64_1_0_0_1_n_n_wf : DotDims.WF S8000x32 S32x64 S8000x64 [1] [0] [0] [1] [] []
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x32_S32x64_S5000x64_1_0_0_1_n_n_wf : DotDims.WF S5000x32 S32x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x32.size a ≤ S800000x32.size a
  hwx0_1 : ∀ i : grid0.Coords, EltTy.bits .f32 = 32 ∨ (Rect.block (s := S800000x32) S8000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8000x64.size a ≤ S800000x64.size a
  hwx0_5 : ∀ i : grid0.Coords, EltTy.bits .f32 = 32 ∨ (Rect.block (s := S800000x64) S8000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S50000x32.size a
  hwx1_2 : ∀ i : grid1.Coords, EltTy.bits .f32 = 32 ∨ (Rect.block (s := S50000x32) S5000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x64.size a ≤ S32x64.size a
  hwx1_5 : ∀ i : grid1.Coords, EltTy.bits .f32 = 32 ∨ (Rect.block (s := S32x64) S32x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S256x32_S50000x1_S50000x32_1_0_n_n_0_1_132 : GatherDims S256x32 S50000x1 S50000x32 where
  offsetDims := [1]
  collapsedSliceDims := [0]
  operandBatchingDims := []
  startIndicesBatchingDims := []
  startIndexMap := [0]
  indexVectorDim := 1
  sliceSizes := ![1, 32]
  wf := gather_S256x32_S50000x1_S50000x32_1_0_n_n_0_1_132_wf
def dot_S8000x64_S64x64_S8000x64_1_0_0_1_n_n : DotDims S8000x64 S64x64 S8000x64 where
  lhsContracting := [1]
  rhsContracting := [0]
  lhsNonContracting := [0]
  rhsNonContracting := [1]
  lhsBatch := []
  rhsBatch := []
  wf := dot_S8000x64_S64x64_S8000x64_1_0_0_1_n_n_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf

abbrev win0_0 : Pipeline.Window sig grid0 :=
  Pipeline.Window.ofSpec (Memref.whole main_v10) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S8000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S32x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v29) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x32 : Shape := ⟨2, ![800000, 32]⟩
abbrev S256x32 : Shape := ⟨2, ![256, 32]⟩
abbrev S50000 : Shape := ⟨1, ![50000]⟩
abbrev S96x64 : Shape := ⟨2, ![96, 64]⟩
abbrev S64 : Shape := ⟨1, ![64]⟩
abbrev S160x64 : Shape := ⟨2, ![160, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x96 : Shape := ⟨2, ![800000, 96]⟩
abbrev S1x64 : Shape := ⟨2, ![1, 64]⟩
abbrev S50000x1 : Shape := ⟨2, ![50000, 1]⟩
abbrev S50000x32 : Shape := ⟨2, ![50000, 32]⟩
abbrev S50000x160 : Shape := ⟨2, ![50000, 160]⟩

abbrev nBuf : Space → Nat
  | .hbm => 51
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x32, .f32⟩
  | .hbm, ⟨3, _⟩ => ⟨S256x32, .f32⟩
  | .hbm, ⟨4, _⟩ => ⟨S50000, .i32⟩
  | .hbm, ⟨5, _⟩ => ⟨S96x64, .f32⟩
  | .hbm, ⟨6, _⟩ => ⟨S64, .f32⟩
  | .hbm, ⟨7, _⟩ => ⟨S160x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S800000x96, .f32⟩
  | .hbm, ⟨23, _⟩ => ⟨S800000x64, .f32⟩
  | .hbm, ⟨24, _⟩ => ⟨S1x64, .f32⟩
  | .hbm, ⟨25, _⟩ => ⟨S800000x64, .f32⟩
  | .hbm, ⟨26, _⟩ => ⟨S800000x64, .f32⟩
  | .hbm, ⟨27, _⟩ => ⟨S_, .f32⟩
  | .hbm, ⟨28, _⟩ => ⟨S800000x64, .f32⟩
  | .hbm, ⟨29, _⟩ => ⟨S800000x64, .f32⟩
  | .hbm, ⟨30, _⟩ => ⟨S_, .f32⟩
  | .hbm, ⟨31, _⟩ => ⟨S50000x64, .f32⟩
  | .hbm, ⟨32, _⟩ => ⟨S800000x1, .i32⟩
  | .hbm, ⟨33, _⟩ => ⟨S50000x64, .f32⟩
  | .hbm, ⟨34, _⟩ => ⟨S_, .i32⟩
  | .hbm, ⟨35, _⟩ => ⟨S50000, .i32⟩
  | .hbm, ⟨36, _⟩ => ⟨S50000, .i1⟩
  | .hbm, ⟨37, _⟩ => ⟨S_, .i32⟩
  | .hbm, ⟨38, _⟩ => ⟨S50000, .i32⟩
  | .hbm, ⟨39, _⟩ => ⟨S50000, .i32⟩
  | .hbm, ⟨40, _⟩ => ⟨S50000, .i32⟩
  | .hbm, ⟨41, _⟩ => ⟨S50000x1, .i32⟩
  | .hbm, ⟨42, _⟩ => ⟨S50000x32, .f32⟩
  | .hbm, ⟨43, _⟩ => ⟨S50000x160, .f32⟩
  | .hbm, ⟨44, _⟩ => ⟨S50000x64, .f32⟩
  | .hbm, ⟨45, _⟩ => ⟨S1x64, .f32⟩
  | .hbm, ⟨46, _⟩ => ⟨S50000x64, .f32⟩
  | .hbm, ⟨47, _⟩ => ⟨S50000x64, .f32⟩
  | .hbm, ⟨48, _⟩ => ⟨S_, .f32⟩
  | .hbm, ⟨49, _⟩ => ⟨S50000x64, .f32⟩
  | .hbm, ⟨50, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_1 : Ref sig .tc := ⟨.hbm, 34, rfl⟩
abbrev main_v20 : Ref sig .tc := ⟨.hbm, 35, rfl⟩
abbrev main_v21 : Ref sig .tc := ⟨.hbm, 36, rfl⟩
abbrev main_c_2 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call1_cst : Ref sig .tc := ⟨.hbm, 48, rfl⟩
abbrev main_call1_v0 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x32_S800000x96_d1 : Shape.Concatenates [S800000x64, S800000x32] S800000x96 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  concatenates_S50000x64_S50000x64_S50000x32_S50000x160_d1 : Shape.Concatenates [S50000x64, S50000x64, S50000x32] S50000x160 1
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x96_S96x64_S800000x64_1_0_0_1_n_n_wf : DotDims.WF S800000x96 S96x64 S800000x64 [1] [0] [0] [1] [] []
  scatter_S50000x64_S800000x1_S800000x64_1_0_0_1_wf : ScatterDims.WF S50000x64 S800000x1 S800000x64 [1] [0] [0] 1
  gather_S256x32_S50000x1_S50000x32_1_0_n_n_0_1_132_wf : GatherDims.WF S256x32 S50000x1 S50000x32 [1] [0] [] [0] [] 1 ![1, 32]
  dot_S50000x160_S160x64_S50000x64_1_0_0_1_n_n_wf : DotDims.WF S50000x160 S160x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x96_S96x64_S800000x64_1_0_0_1_n_n : DotDims S800000x96 S96x64 S800000x64 where
  lhsContracting := [1]
  rhsContracting := [0]
  lhsNonContracting := [0]
  rhsNonContracting := [1]
  lhsBatch := []
  rhsBatch := []
  wf := dot_S800000x96_S96x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S256x32_S50000x1_S50000x32_1_0_n_n_0_1_132 : GatherDims S256x32 S50000x1 S50000x32 where
  offsetDims := [1]
  collapsedSliceDims := [0]
  operandBatchingDims := []
  startIndicesBatchingDims := []
  startIndexMap := [0]
  indexVectorDim := 1
  sliceSizes := ![1, 32]
  wf := gather_S256x32_S50000x1_S50000x32_1_0_n_n_0_1_132_wf
def dot_S50000x160_S160x64_S50000x64_1_0_0_1_n_n : DotDims S50000x160 S160x64 S50000x64 where
  lhsContracting := [1]
  rhsContracting := [0]
  lhsNonContracting := [0]
  rhsNonContracting := [1]
  lhsBatch := []
  rhsBatch := []
  wf := dot_S50000x160_S160x64_S50000x64_1_0_0_1_n_n_wf

class Facts : Prop extends Facts₀ where

variable [Facts]
-- ==== Proof.KernelRun.lean ====
/-
  The idealized kernel program's run with every buffer named. The program is two pipelined regions among two stretches
  of host operations; its run leaves every unscoped buffer of a core at the last boundary's contents, which are a fold
  from the launch memory: the first stretch's operations, the first region's arrays at what its write-backs leave, the
  second stretch's operations, the second region's arrays at what its write-backs leave. Stated here once for every
  buffer, so that a later module can read the result array off that fold.
-/
import proofs.«129833_j44573170598878_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting, and in
    every final state each unscoped buffer of each core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result array after the run is the second region's output array after its last write-back. -/
theorem result_at (r : PUnit × MemSt nD τ sig (Elt F))
    (h : ∀ c : Dev nD, ∀ b ∈ Pipeline.ucRefs τ sig, r.2.mem (((c : Thread nD τ)).1, b) = W4 m ρ c b) (c : Dev nD) :
    r.2.mem ((c.tc : Thread nD τ).loc main_v29) = (dat1 (V3 m ρ) c).arrAt 7 cfg1.N :=
  (h c _ (mem_uc main_v29 (by decide))).trans (W4_arr m ρ c 7)

/-- The argument arrays end as launched. -/
theorem args_kept (r : PUnit × MemSt nD τ sig (Elt F))
    (h : ∀ c : Dev nD, ∀ b ∈ Pipeline.ucRefs τ sig, r.2.mem (((c : Thread nD τ)).1, b) = W4 m ρ c b) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨(h c _ (mem_uc main_arg0 (by decide))).trans (W4_main_arg0 m ρ c),
   (h c _ (mem_uc main_arg1 (by decide))).trans (W4_main_arg1 m ρ c),
   (h c _ (mem_uc main_arg2 (by decide))).trans (W4_main_arg2 m ρ c),
   (h c _ (mem_uc main_arg3 (by decide))).trans (W4_main_arg3 m ρ c),
   (h c _ (mem_uc main_arg4 (by decide))).trans (W4_main_arg4 m ρ c),
   (h c _ (mem_uc main_arg5 (by decide))).trans (W4_main_arg5 m ρ c),
   (h c _ (mem_uc main_arg6 (by decide))).trans (W4_main_arg6 m ρ c),
   (h c _ (mem_uc main_arg7 (by decide))).trans (W4_main_arg7 m ρ c),
   (h c _ (mem_uc main_arg8 (by decide))).trans (W4_main_arg8 m ρ c)⟩

end Cert.KernelIdeal.Hand

end
-- ==== Proof.LibContract1.lean ====
/-
  A matrix product whose dimension numbers contract ONE axis, read at a result index at the ideal values, for any
  dimension record: the kernel's `tpu.matmul` into the zero accumulator and the host's `dot_general` are both the sum,
  over that axis's coordinate `k : Fin n`, of the operands' products, each operand read at an index the caller NAMES
  (`L k`, `R k`) and proves to be where the record sends the result index and `k`. The caller's two obligations are
  per-axis facts about `DotDims.lhsIdx` / `rhsIdx` (`DotDims.lhsIdx_val_of_single` on the contracted axis, two `dif`
  rewrites on a kept one); everything else — opening the product, re-indexing the contraction shape's one-axis index by
  `Fin n` — is done here once.
-/
import Idealize.ShloMosaic.PureOps.Ideal.Laws
import Idealize.ShloMosaic.Lib.ValueIdx

noncomputable section

namespace Cert.LibContract1

open Idealize.ShloMosaic Idealize.ShloMosaic.ValueIdx

/-- A `tpu.matmul` into the f32 zero splat, one contracted axis of extent `n`: at `j` it is `∑ k, lhs (L k) · rhs (R k)`. -/
theorem matmul_zero_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    matmul d none lhs rhs (constant (F := Ideal) so .f32 0x00000000#32) j = ∑ k : Fin n, lhs (L k) * rhs (R k) := by
  simp only [matmul]
  rw [Ideal.matmul_constant_zero_apply, ← Equiv.sum_comp (contrEquiv1 d n hr hs).symm]
  exact Finset.sum_congr rfl fun k _ => by rw [hL k, hR k]

/-- The host's `dot_general`, one contracted axis of extent `n`: at `j` it is `∑ k, lhs (L k) · rhs (R k)`. -/
theorem dotGeneral_single {sl sr so : Shape} {φ₁ φ₂ : FTy} (d : DotDims sl sr so) (n : ℕ) (hr : d.contr.rank = 1)
    (hs : d.contr.size ⟨0, by omega⟩ = n) (lhs : FVec Ideal sl φ₁) (rhs : FVec Ideal sr φ₂) (j : so.Idx)
    (L : Fin n → sl.Idx) (R : Fin n → sr.Idx)
    (hL : ∀ k, d.lhsIdx j ((contrEquiv1 d n hr hs).symm k) = L k)
    (hR : ∀ k, d.rhsIdx j ((contrEquiv1 d n hr hs).symm k) = R k) :
    Host.dotGeneral d none lhs rhs j = ∑ k : Fin n, lhs (L k) * rhs (R k) := by
  simp only [Host.dotGeneral]
  rw [Ideal.dotGeneral_apply, ← Equiv.sum_comp (contrEquiv1 d n hr hs).symm]
  exact Finset.sum_congr rfl fun k _ => by rw [hL k, hR k]

end Cert.LibContract1

end
-- ==== Proof.LibMatRows.lean ====
/-
  A plain matrix product of an `[a, k]` array with a `[k, n]` array, contracted over the shared axis of extent `k`, read
  at the result's entry `(p, c)` at the ideal values: the sum over `j : Fin k` of `lhs (p, j) * rhs (j, c)` — for the
  kernel's `tpu.matmul` into the zero accumulator and for the host's `dot_general` alike.

  It holds for ANY dimension record between those three shapes that says what a plain product says (`RowsTimesMat`): one
  contracted axis of extent `k`; the left operand read at the result's row and the contracted coordinate; the right operand
  at the contracted coordinate and the result's column. For a printed record the six facts are `rfl`, `rfl`,
  `DotDims.lhsIdx_val_of_single rfl` / `rhsIdx_val_of_single rfl` on the contracted axes, and two `dif` rewrites (not a
  batch axis, a kept axis) on the kept ones.
-/
import proofs.«129833_j44573170598878_1_alg».proof.Proof.LibContract1
import Idealize.ShloMosaic.PureOps.Ideal.Laws
import Idealize.ShloMosaic.Lib.ValueIdx

noncomputable section

namespace Cert.LibMatRows

open Idealize.ShloMosaic Idealize.ShloMosaic.ValueIdx

/-- What a dimension record between `[a, k]`, `[k, n]` and `[a, n]` must say to be a plain product. -/
structure RowsTimesMat {a k n : ℕ} (d : DotDims ⟨2, ![a, k]⟩ ⟨2, ![k, n]⟩ ⟨2, ![a, n]⟩) : Prop where
  rank : d.contr.rank = 1
  size : d.contr.size ⟨0, by omega⟩ = k
  l0 : ∀ (i : (⟨2, ![a, n]⟩ : Shape).Idx) (q : d.contr.Idx), (d.lhsIdx i q 0).val = (i 0).val
  l1 : ∀ (i : (⟨2, ![a, n]⟩ : Shape).Idx) (q : d.contr.Idx), (d.lhsIdx i q 1).val = (q ⟨0, by omega⟩).val
  r0 : ∀ (i : (⟨2, ![a, n]⟩ : Shape).Idx) (q : d.contr.Idx), (d.rhsIdx i q 0).val = (q ⟨0, by omega⟩).val
  r1 : ∀ (i : (⟨2, ![a, n]⟩ : Shape).Idx) (q : d.contr.Idx), (d.rhsIdx i q 1).val = (i 1).val

variable {a k n : ℕ} {d : DotDims ⟨2, ![a, k]⟩ ⟨2, ![k, n]⟩ ⟨2, ![a, n]⟩}

/-- The left operand's index at result entry `(p, c)` and contracted coordinate `j` is `(p, j)`. -/
theorem RowsTimesMat.lhsIdx_eq (hd : RowsTimesMat d) (p : Fin a) (c : Fin n) (j : Fin k) :
    d.lhsIdx (ix2 p c) ((contrEquiv1 d k hd.rank hd.size).symm j) = ix2 p j :=
  funext fun ax => Fin.ext (by
    match ax with
    | ⟨0, _⟩ => exact hd.l0 _ _
    | ⟨1, _⟩ => exact (hd.l1 _ _).trans (contrEquiv1_symm_val d k hd.rank hd.size j))

/-- The right operand's index at result entry `(p, c)` and contracted coordinate `j` is `(j, c)`. -/
theorem RowsTimesMat.rhsIdx_eq (hd : RowsTimesMat d) (p : Fin a) (c : Fin n) (j : Fin k) :
    d.rhsIdx (ix2 p c) ((contrEquiv1 d k hd.rank hd.size).symm j) = ix2 j c :=
  funext fun ax => Fin.ext (by
    match ax with
    | ⟨0, _⟩ => exact (hd.r0 _ _).trans (contrEquiv1_symm_val d k hd.rank hd.size j)
    | ⟨1, _⟩ => exact hd.r1 _ _)

/-- The kernel's product into the zero accumulator at `(p, c)`. -/
theorem matmul_rows {φ₁ φ₂ : FTy} (hd : RowsTimesMat d) (lhs : FVec Ideal ⟨2, ![a, k]⟩ φ₁) (rhs : FVec Ideal ⟨2, ![k, n]⟩ φ₂)
    (p : Fin a) (c : Fin n) :
    matmul d none lhs rhs (constant (F := Ideal) ⟨2, ![a, n]⟩ .f32 0x00000000#32) (ix2 p c) = ∑ j : Fin k, lhs (ix2 p j) * rhs (ix2 j c) :=
  LibContract1.matmul_zero_single d k hd.rank hd.size lhs rhs (ix2 p c) (fun j => ix2 p j) (fun j => ix2 j c)
    (hd.lhsIdx_eq p c) (hd.rhsIdx_eq p c)

/-- The host's product at `(p, c)`. -/
theorem dotGeneral_rows {φ₁ φ₂ : FTy} (hd : RowsTimesMat d) (lhs : FVec Ideal ⟨2, ![a, k]⟩ φ₁) (rhs : FVec Ideal ⟨2, ![k, n]⟩ φ₂)
    (p : Fin a) (c : Fin n) :
    Host.dotGeneral d none lhs rhs (ix2 p c) = ∑ j : Fin k, lhs (ix2 p j) * rhs (ix2 j c) :=
  LibContract1.dotGeneral_single d k hd.rank hd.size lhs rhs (ix2 p c) (fun j => ix2 p j) (fun j => ix2 j c)
    (hd.lhsIdx_eq p c) (hd.rhsIdx_eq p c)

end Cert.LibMatRows

end
-- ==== Proof.LibHostBroadcast.lean ====
/-
  The host's `broadcast_in_dim` in its four keepdims forms, read at an entry: a vector `[a]` as a column `[a, 1]`, a
  column `[a, 1]` spread over `b` lanes, a vector `[c]` as a row `[1, c]`, and a row `[1, c]` spread down `a` rows.
-/
import Idealize.ShloMosaic.Lib.Pipeline.Value
import Idealize.ShloMosaic.Lib.ValueIdx

noncomputable section

namespace Cert.LibHostBroadcast

open Idealize.ShloMosaic Idealize.ShloMosaic.ValueIdx

variable {α : Type}

/-- A vector `[a]` broadcast along axis 0 to the column `[a, 1]` reads, at `(i, u)`, the vector at `i`. -/
theorem vec_to_col_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) :=
  broadcastInDim_apply _ h x (ix2 i u) (ix1 i) fun ax => by
    match ax with
    | ⟨0, _⟩ =>
      show i.val = if a = 1 then 0 else i.val
      split
      · have := i.isLt; omega
      · rfl

/-- A column `[a, 1]` broadcast to `[a, b]` reads, at `(i, j)`, the column at `(i, 0)`. -/
theorem col_to_mat_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ (![0, 1] : Fin 2 → Fin 2) h x (ix2 i j) = x (ix2 i (0 : Fin 1)) :=
  broadcastInDim_apply _ h x (ix2 i j) (ix2 i (0 : Fin 1)) fun ax => by
    match ax with
    | ⟨0, _⟩ =>
      show i.val = if a = 1 then 0 else i.val
      split
      · have := i.isLt; omega
      · rfl
    | ⟨1, _⟩ =>
      show 0 = if (1 : ℕ) = 1 then 0 else j.val
      rw [if_pos rfl]

/-- A vector `[c]` broadcast along axis 1 to the row `[1, c]` reads, at `(u, j)`, the vector at `j`. -/
theorem vec_to_row_apply {c : ℕ} (x : (⟨1, ![c]⟩ : Shape).Idx → α)
    (h : (⟨1, ![c]⟩ : Shape).BroadcastsInDim ⟨2, ![1, c]⟩ (![1] : Fin 1 → Fin 2)) (u : Fin 1) (j : Fin c) :
    broadcastInDim ⟨2, ![1, c]⟩ (![1] : Fin 1 → Fin 2) h x (ix2 u j) = x (ix1 j) :=
  broadcastInDim_apply _ h x (ix2 u j) (ix1 j) fun ax => by
    match ax with
    | ⟨0, _⟩ =>
      show j.val = if c = 1 then 0 else j.val
      split
      · have := j.isLt; omega
      · rfl

/-- A row `[1, c]` broadcast to `[a, c]` reads, at `(i, j)`, the row at `(0, j)`. -/
theorem row_to_mat_apply {a c : ℕ} (x : (⟨2, ![1, c]⟩ : Shape).Idx → α)
    (h : (⟨2, ![1, c]⟩ : Shape).BroadcastsInDim ⟨2, ![a, c]⟩ (![0, 1] : Fin 2 → Fin 2)) (i : Fin a) (j : Fin c) :
    broadcastInDim ⟨2, ![a, c]⟩ (![0, 1] : Fin 2 → Fin 2) h x (ix2 i j) = x (ix2 (0 : Fin 1) j) :=
  broadcastInDim_apply _ h x (ix2 i j) (ix2 (0 : Fin 1) j) fun ax => by
    match ax with
    | ⟨0, _⟩ =>
      show 0 = if (1 : ℕ) = 1 then 0 else i.val
      rw [if_pos rfl]
    | ⟨1, _⟩ =>
      show j.val = if c = 1 then 0 else j.val
      split
      · have := j.isLt; omega
      · rfl

end Cert.LibHostBroadcast

end
-- ==== Proof.LibDenseLayers.lean ====
/-
  Dense layers as functions of whole arrays over the extended reals, for any extents, and how a kernel and a host program
  each compute an entry: general lemmas.

  `dense x w b` is `x · w + b`: entry (p, q) is the sum over j of x(p, j) · w(j, q), plus the bias row's entry q.
  `dense2 x₁ x₂ w b` multiplies the rows of `w` below `k₁` with `x₁` and the rows from `k₁` on with `x₂`:
  entry (p, q) is  Σ_{j<k₁} x₁(p, j) · w(j, q)  +  Σ_{j<k₂} x₂(p, j) · w(k₁ + j, q),  plus the bias.
  The kernel computes exactly these (two matrix products into zero accumulators, on the two row ranges of the weight
  block, then the broadcast bias row). The reference concatenates `x₁` and `x₂` along the columns and takes ONE product
  over all k₁ + k₂ columns: a sum over `Fin (k₁ + k₂)` splits into its first k₁ and last k₂ terms — additivity of a
  finite sum over a disjoint union, which holds in any commutative monoid, so no finiteness of the entries is needed.
-/
import proofs.«129833_j44573170598878_1_alg».proof.Proof.LibMatRows
import proofs.«129833_j44573170598878_1_alg».proof.Proof.LibHostBroadcast
import Idealize.ShloMosaic.Lib.ValueLayout
import Idealize.ShloMosaic.Lib.Pipeline.Value
import Idealize.ShloMosaic.Lib.ValueIdx
import Idealize.ShloMosaic.PureOps.Ideal.Laws

noncomputable section

namespace Cert.LibDenseLayers

open Idealize.ShloMosaic Idealize.ShloMosaic.ValueIdx Cert.LibMatRows Cert.LibHostBroadcast

variable {a k k1 k2 n : ℕ}

/-! ## The layers -/

/-- Entry (p, q) of `x · w + b`. -/
def denseAt (x : (⟨2, ![a, k]⟩ : Shape).Idx → EReal) (w : (⟨2, ![k, n]⟩ : Shape).Idx → EReal)
    (b : (⟨2, ![1, n]⟩ : Shape).Idx → EReal) (p : Fin a) (q : Fin n) : EReal :=
  (∑ j : Fin k, x (ix2 p j) * w (ix2 j q)) + b (ix2 (0 : Fin 1) q)

/-- `x · w + b` as one array. -/
def dense (x : (⟨2, ![a, k]⟩ : Shape).Idx → EReal) (w : (⟨2, ![k, n]⟩ : Shape).Idx → EReal)
    (b : (⟨2, ![1, n]⟩ : Shape).Idx → EReal) : (⟨2, ![a, n]⟩ : Shape).Idx → EReal :=
  fun i => denseAt x w b (i 0) (i 1)

/-- Entry (p, q) of `x₁ · w[0:k₁] + x₂ · w[k₁:k] + b`. -/
def dense2At (hk : k1 + k2 = k) (x1 : (⟨2, ![a, k1]⟩ : Shape).Idx → EReal) (x2 : (⟨2, ![a, k2]⟩ : Shape).Idx → EReal)
    (w : (⟨2, ![k, n]⟩ : Shape).Idx → EReal) (b : (⟨2, ![1, n]⟩ : Shape).Idx → EReal) (p : Fin a) (q : Fin n) : EReal :=
  ((∑ j : Fin k1, x1 (ix2 p j) * w (ix2 (⟨j.val, by have := j.isLt; omega⟩ : Fin k) q))
    + (∑ j : Fin k2, x2 (ix2 p j) * w (ix2 (⟨k1 + j.val, by have := j.isLt; omega⟩ : Fin k) q)))
    + b (ix2 (0 : Fin 1) q)

/-- `x₁ · w[0:k₁] + x₂ · w[k₁:k] + b` as one array. -/
def dense2 (hk : k1 + k2 = k) (x1 : (⟨2, ![a, k1]⟩ : Shape).Idx → EReal) (x2 : (⟨2, ![a, k2]⟩ : Shape).Idx → EReal)
    (w : (⟨2, ![k, n]⟩ : Shape).Idx → EReal) (b : (⟨2, ![1, n]⟩ : Shape).Idx → EReal) : (⟨2, ![a, n]⟩ : Shape).Idx → EReal :=
  fun i => dense2At hk x1 x2 w b (i 0) (i 1)

/-- Two entries of two dense layers agree when the rows, the columns and the bias entries they read agree. -/
theorem denseAt_congr {a' n' : ℕ} {x : (⟨2, ![a, k]⟩ : Shape).Idx → EReal} {w : (⟨2, ![k, n]⟩ : Shape).Idx → EReal}
    {b : (⟨2, ![1, n]⟩ : Shape).Idx → EReal} {x' : (⟨2, ![a', k]⟩ : Shape).Idx → EReal} {w' : (⟨2, ![k, n']⟩ : Shape).Idx → EReal}
    {b' : (⟨2, ![1, n']⟩ : Shape).Idx → EReal} {p : Fin a} {q : Fin n} {p' : Fin a'} {q' : Fin n'}
    (hx : ∀ j : Fin k, x (ix2 p j) = x' (ix2 p' j)) (hw : ∀ j : Fin k, w (ix2 j q) = w' (ix2 j q'))
    (hb : b (ix2 (0 : Fin 1) q) = b' (ix2 (0 : Fin 1) q')) : denseAt x w b p q = denseAt x' w' b' p' q' := by
  unfold denseAt
  rw [hb]
  exact congrArg (· + _) (Finset.sum_congr rfl fun j _ => by rw [hx j, hw j])

/-- The same for a split layer; the weight block may be a window of `K'` rows' worth of a larger array. -/
theorem dense2At_congr {a' n' : ℕ} (hk : k1 + k2 = k) {x1 : (⟨2, ![a, k1]⟩ : Shape).Idx → EReal} {x2 : (⟨2, ![a, k2]⟩ : Shape).Idx → EReal}
    {w : (⟨2, ![k, n]⟩ : Shape).Idx → EReal} {b : (⟨2, ![1, n]⟩ : Shape).Idx → EReal}
    {x1' : (⟨2, ![a', k1]⟩ : Shape).Idx → EReal} {x2' : (⟨2, ![a', k2]⟩ : Shape).Idx → EReal}
    {w' : (⟨2, ![k, n']⟩ : Shape).Idx → EReal} {b' : (⟨2, ![1, n']⟩ : Shape).Idx → EReal}
    {p : Fin a} {q : Fin n} {p' : Fin a'} {q' : Fin n'}
    (hx1 : ∀ j : Fin k1, x1 (ix2 p j) = x1' (ix2 p' j)) (hx2 : ∀ j : Fin k2, x2 (ix2 p j) = x2' (ix2 p' j))
    (hw : ∀ j : Fin k, w (ix2 j q) = w' (ix2 j q'))
    (hb : b (ix2 (0 : Fin 1) q) = b' (ix2 (0 : Fin 1) q')) : dense2At hk x1 x2 w b p q = dense2At hk x1' x2' w' b' p' q' := by
  unfold dense2At
  rw [hb]
  refine congrArg (· + _) (congrArg₂ (· + ·) (Finset.sum_congr rfl fun j _ => ?_) (Finset.sum_congr rfl fun j _ => ?_))
  · rw [hx1 j, hw]
  · rw [hx2 j, hw]

/-! ## What the kernel computes at an entry -/

/-- A product into the zero accumulator plus the broadcast bias row, at (p, q). -/
theorem kernel_dense {d : DotDims ⟨2, ![a, k]⟩ ⟨2, ![k, n]⟩ ⟨2, ![a, n]⟩} (hd : RowsTimesMat d)
    (x : FVec Ideal ⟨2, ![a, k]⟩ .bf16) (w : FVec Ideal ⟨2, ![k, n]⟩ .bf16) (b : FVec Ideal ⟨2, ![1, n]⟩ .f32)
    (hb : (⟨2, ![1, n]⟩ : Shape).Broadcasts ⟨2, ![a, n]⟩) (p : Fin a) (q : Fin n) :
    addf (matmul d none x w (constant (F := Ideal) ⟨2, ![a, n]⟩ .f32 0x00000000#32)) (broadcastTo ⟨2, ![a, n]⟩ b hb) (ix2 p q)
      = denseAt x w b p q :=
  congrArg₂ (· + ·) (matmul_rows hd x w p q) (broadcastTo_1b_ab_apply b hb p q)

/-- Two products into zero accumulators, on the rows of the weight block below `k₁` and from `k₁` on, added, plus the
    broadcast bias row, at (p, q). -/
theorem kernel_dense2 (hk : k1 + k2 = k) {d1 : DotDims ⟨2, ![a, k1]⟩ ⟨2, ![k1, n]⟩ ⟨2, ![a, n]⟩} (hd1 : RowsTimesMat d1)
    {d2 : DotDims ⟨2, ![a, k2]⟩ ⟨2, ![k2, n]⟩ ⟨2, ![a, n]⟩} (hd2 : RowsTimesMat d2)
    (x1 : FVec Ideal ⟨2, ![a, k1]⟩ .bf16) (x2 : FVec Ideal ⟨2, ![a, k2]⟩ .bf16) (w : FVec Ideal ⟨2, ![k, n]⟩ .bf16)
    (b : FVec Ideal ⟨2, ![1, n]⟩ .f32)
    (h1 : (⟨2, ![k, n]⟩ : Shape).Slices ![0, 0] ⟨2, ![k1, n]⟩) (h2 : (⟨2, ![k, n]⟩ : Shape).Slices ![k1, 0] ⟨2, ![k2, n]⟩)
    (hb : (⟨2, ![1, n]⟩ : Shape).Broadcasts ⟨2, ![a, n]⟩) (p : Fin a) (q : Fin n) :
    addf (addf (matmul d1 none x1 (extractStridedSlice ⟨2, ![k1, n]⟩ ![0, 0] w h1) (constant (F := Ideal) ⟨2, ![a, n]⟩ .f32 0x00000000#32))
        (matmul d2 none x2 (extractStridedSlice ⟨2, ![k2, n]⟩ ![k1, 0] w h2) (constant (F := Ideal) ⟨2, ![a, n]⟩ .f32 0x00000000#32)))
      (broadcastTo ⟨2, ![a, n]⟩ b hb) (ix2 p q)
      = dense2At hk x1 x2 w b p q := by
  refine congrArg₂ (· + ·) (congrArg₂ (· + ·) ((matmul_rows hd1 x1 _ p q).trans ?_) ((matmul_rows hd2 x2 _ p q).trans ?_))
    (broadcastTo_1b_ab_apply b hb p q)
  · exact Finset.sum_congr rfl fun j _ => congrArg (x1 (ix2 p j) * ·)
      (slice2_axis0_apply 0 w h1 j q ⟨j.val, by have := j.isLt; omega⟩ (Nat.zero_add _).symm)
  · exact Finset.sum_congr rfl fun j _ => congrArg (x2 (ix2 p j) * ·)
      (slice2_axis0_apply k1 w h2 j q ⟨k1 + j.val, by have := j.isLt; omega⟩ rfl)

/-! ## What the reference computes at an entry -/

/-- The host's product plus the bias vector spread as a row and then down the rows, at (p, q). -/
theorem ref_dense {d : DotDims ⟨2, ![a, k]⟩ ⟨2, ![k, n]⟩ ⟨2, ![a, n]⟩} (hd : RowsTimesMat d)
    (x : FVec Ideal ⟨2, ![a, k]⟩ .f32) (w : FVec Ideal ⟨2, ![k, n]⟩ .f32) (b : FVec Ideal ⟨2, ![1, n]⟩ .f32)
    (h2 : (⟨2, ![1, n]⟩ : Shape).BroadcastsInDim ⟨2, ![a, n]⟩ (![0, 1] : Fin 2 → Fin 2)) (p : Fin a) (q : Fin n) :
    addf (Host.dotGeneral d none x w) (broadcastInDim ⟨2, ![a, n]⟩ (![0, 1] : Fin 2 → Fin 2) h2 b) (ix2 p q) = denseAt x w b p q :=
  congrArg₂ (· + ·) (dotGeneral_rows hd x w p q) (row_to_mat_apply b h2 p q)

/-- A sum over the first `k₁ + k₂` naturals splits into its first `k₁` and its last `k₂` terms. -/
theorem sum_split (hk : k1 + k2 = k) (f : Fin k → EReal) :
    ∑ j : Fin k, f j = (∑ j : Fin k1, f ⟨j.val, by have := j.isLt; omega⟩) + ∑ j : Fin k2, f ⟨k1 + j.val, by have := j.isLt; omega⟩ := by
  subst hk
  exact Fin.sum_univ_add f

/-- The host's ONE product over the concatenation of `x₁` and `x₂` along the columns, plus the bias, at (p, q): the
    split layer's entry. -/
theorem ref_dense2 (hk : k1 + k2 = k) {d : DotDims ⟨2, ![a, k]⟩ ⟨2, ![k, n]⟩ ⟨2, ![a, n]⟩} (hd : RowsTimesMat d)
    (x1 : FVec Ideal ⟨2, ![a, k1]⟩ .f32) (x2 : FVec Ideal ⟨2, ![a, k2]⟩ .f32) (w : FVec Ideal ⟨2, ![k, n]⟩ .f32)
    (b : FVec Ideal ⟨2, ![1, n]⟩ .f32)
    (hc : Shape.Concatenates [(⟨2, ![a, k1]⟩ : Shape), ⟨2, ![a, k2]⟩] ⟨2, ![a, k]⟩ 1)
    (h2 : (⟨2, ![1, n]⟩ : Shape).BroadcastsInDim ⟨2, ![a, n]⟩ (![0, 1] : Fin 2 → Fin 2)) (p : Fin a) (q : Fin n) :
    addf (Host.dotGeneral d none (concatenate ⟨2, ![a, k]⟩ 1 [⟨⟨2, ![a, k1]⟩, x1⟩, ⟨⟨2, ![a, k2]⟩, x2⟩] hc) w)
      (broadcastInDim ⟨2, ![a, n]⟩ (![0, 1] : Fin 2 → Fin 2) h2 b) (ix2 p q) = dense2At hk x1 x2 w b p q := by
  refine congrArg₂ (· + ·) ((dotGeneral_rows hd _ w p q).trans ((sum_split hk _).trans ?_)) (row_to_mat_apply b h2 p q)
  refine congrArg₂ (· + ·) (Finset.sum_congr rfl fun j _ => congrArg (· * _) ?_) (Finset.sum_congr rfl fun j _ => congrArg (· * _) ?_)
  · refine concatenate_pair_apply_left (t := ⟨2, ![a, k]⟩) (1 : Fin 2) x1 x2 hc _ rfl (ix2 p j) fun ax => ?_
    match ax with
    | ⟨0, _⟩ => rfl
    | ⟨1, _⟩ => rfl
  · refine concatenate_pair_apply_right (t := ⟨2, ![a, k]⟩) (1 : Fin 2) x1 x2 hc _ rfl rfl (ix2 p j) (fun ax hax => ?_) ?_
    · match ax with
      | ⟨0, _⟩ => rfl
      | ⟨1, _⟩ => exact absurd rfl hax
    · show j.val + k1 = k1 + j.val
      omega

/-- The bias vector spread as a row is the bias vector reshaped to a row. -/
theorem bias_row_eq (bv : (⟨1, ![n]⟩ : Shape).Idx → EReal)
    (h1 : (⟨1, ![n]⟩ : Shape).BroadcastsInDim ⟨2, ![1, n]⟩ (![1] : Fin 1 → Fin 2))
    (hs : (⟨1, ![n]⟩ : Shape).ShapeCasts ⟨2, ![1, n]⟩) :
    broadcastInDim ⟨2, ![1, n]⟩ (![1] : Fin 1 → Fin 2) h1 bv = shapeCast ⟨2, ![1, n]⟩ bv hs := by
  funext i
  rw [eq_ix2 i]
  exact (vec_to_row_apply bv h1 _ _).trans (shapeCast_a_1a_apply bv hs _ _).symm

end Cert.LibDenseLayers

end
-- ==== Proof.LibSplitLayers.lean ====
/-
  Dense layers whose input row comes in two or three parts, each multiplied with its own block of weight rows, over the
  extended reals and for any extents: general lemmas.

  `pairAt x₁ x₂ wa wb b p q`  is  Σ_j x₁(p, j) · wa(j, q)  +  Σ_j x₂(p, j) · wb(j, q),  plus the bias row's entry q;
  `tripleAt` has a third part. A kernel computes these literally: one product into a zero accumulator per part, the
  products added from the left, then the broadcast bias row. A reference joins the parts along the columns and takes
  ONE product with the whole weight matrix, of which `wa`, `wb`, `wc` are consecutive blocks of rows: a finite sum
  over the joined columns is the sum of the sums over each part's columns, which holds in any commutative monoid, so
  nothing here asks the entries to be finite.
-/
import proofs.«129833_j44573170598878_1_alg».proof.Proof.LibDenseLayers

noncomputable section

namespace Cert.LibSplitLayers

open Idealize.ShloMosaic Idealize.ShloMosaic.ValueIdx Cert.LibMatRows Cert.LibHostBroadcast Cert.LibDenseLayers

variable {a k k1 k2 k3 n : ℕ}

/-! ## The layers -/

/-- Entry (p, q) of `x₁ · wa + x₂ · wb + b`. -/
def pairAt (x1 : (⟨2, ![a, k1]⟩ : Shape).Idx → EReal) (x2 : (⟨2, ![a, k2]⟩ : Shape).Idx → EReal)
    (wa : (⟨2, ![k1, n]⟩ : Shape).Idx → EReal) (wb : (⟨2, ![k2, n]⟩ : Shape).Idx → EReal)
    (b : (⟨2, ![1, n]⟩ : Shape).Idx → EReal) (p : Fin a) (q : Fin n) : EReal :=
  ((∑ j : Fin k1, x1 (ix2 p j) * wa (ix2 j q)) + (∑ j : Fin k2, x2 (ix2 p j) * wb (ix2 j q))) + b (ix2 (0 : Fin 1) q)

/-- Entry (p, q) of `x₁ · wa + x₂ · wb + x₃ · wc + b`, added from the left. -/
def tripleAt (x1 : (⟨2, ![a, k1]⟩ : Shape).Idx → EReal) (x2 : (⟨2, ![a, k2]⟩ : Shape).Idx → EReal)
    (x3 : (⟨2, ![a, k3]⟩ : Shape).Idx → EReal)
    (wa : (⟨2, ![k1, n]⟩ : Shape).Idx → EReal) (wb : (⟨2, ![k2, n]⟩ : Shape).Idx → EReal)
    (wc : (⟨2, ![k3, n]⟩ : Shape).Idx → EReal)
    (b : (⟨2, ![1, n]⟩ : Shape).Idx → EReal) (p : Fin a) (q : Fin n) : EReal :=
  (((∑ j : Fin k1, x1 (ix2 p j) * wa (ix2 j q)) + (∑ j : Fin k2, x2 (ix2 p j) * wb (ix2 j q)))
    + (∑ j : Fin k3, x3 (ix2 p j) * wc (ix2 j q))) + b (ix2 (0 : Fin 1) q)

/-- Two entries of two such layers agree when the rows, the weight columns and the bias entries they read agree. -/
theorem pairAt_congr {a' n' : ℕ} {x1 : (⟨2, ![a, k1]⟩ : Shape).Idx → EReal} {x2 : (⟨2, ![a, k2]⟩ : Shape).Idx → EReal}
    {wa : (⟨2, ![k1, n]⟩ : Shape).Idx → EReal} {wb : (⟨2, ![k2, n]⟩ : Shape).Idx → EReal} {b : (⟨2, ![1, n]⟩ : Shape).Idx → EReal}
    {x1' : (⟨2, ![a', k1]⟩ : Shape).Idx → EReal} {x2' : (⟨2, ![a', k2]⟩ : Shape).Idx → EReal}
    {wa' : (⟨2, ![k1, n']⟩ : Shape).Idx → EReal} {wb' : (⟨2, ![k2, n']⟩ : Shape).Idx → EReal} {b' : (⟨2, ![1, n']⟩ : Shape).Idx → EReal}
    {p : Fin a} {q : Fin n} {p' : Fin a'} {q' : Fin n'}
    (h1 : ∀ j : Fin k1, x1 (ix2 p j) = x1' (ix2 p' j)) (h2 : ∀ j : Fin k2, x2 (ix2 p j) = x2' (ix2 p' j))
    (ha : ∀ j : Fin k1, wa (ix2 j q) = wa' (ix2 j q')) (hb : ∀ j : Fin k2, wb (ix2 j q) = wb' (ix2 j q'))
    (hbias : b (ix2 (0 : Fin 1) q) = b' (ix2 (0 : Fin 1) q')) :
    pairAt x1 x2 wa wb b p q = pairAt x1' x2' wa' wb' b' p' q' := by
  unfold pairAt
  rw [hbias]
  refine congrArg (· + _) (congrArg₂ (· + ·) (Finset.sum_congr rfl fun j _ => ?_) (Finset.sum_congr rfl fun j _ => ?_))
  · rw [h1 j, ha j]
  · rw [h2 j, hb j]

/-- The same for three parts. -/
theorem tripleAt_congr {a' n' : ℕ} {x1 : (⟨2, ![a, k1]⟩ : Shape).Idx → EReal} {x2 : (⟨2, ![a, k2]⟩ : Shape).Idx → EReal}
    {x3 : (⟨2, ![a, k3]⟩ : Shape).Idx → EReal}
    {wa : (⟨2, ![k1, n]⟩ : Shape).Idx → EReal} {wb : (⟨2, ![k2, n]⟩ : Shape).Idx → EReal} {wc : (⟨2, ![k3, n]⟩ : Shape).Idx → EReal}
    {b : (⟨2, ![1, n]⟩ : Shape).Idx → EReal}
    {x1' : (⟨2, ![a', k1]⟩ : Shape).Idx → EReal} {x2' : (⟨2, ![a', k2]⟩ : Shape).Idx → EReal}
    {x3' : (⟨2, ![a', k3]⟩ : Shape).Idx → EReal}
    {wa' : (⟨2, ![k1, n']⟩ : Shape).Idx → EReal} {wb' : (⟨2, ![k2, n']⟩ : Shape).Idx → EReal} {wc' : (⟨2, ![k3, n']⟩ : Shape).Idx → EReal}
    {b' : (⟨2, ![1, n']⟩ : Shape).Idx → EReal}
    {p : Fin a} {q : Fin n} {p' : Fin a'} {q' : Fin n'}
    (h1 : ∀ j : Fin k1, x1 (ix2 p j) = x1' (ix2 p' j)) (h2 : ∀ j : Fin k2, x2 (ix2 p j) = x2' (ix2 p' j))
    (h3 : ∀ j : Fin k3, x3 (ix2 p j) = x3' (ix2 p' j))
    (ha : ∀ j : Fin k1, wa (ix2 j q) = wa' (ix2 j q')) (hb : ∀ j : Fin k2, wb (ix2 j q) = wb' (ix2 j q'))
    (hc : ∀ j : Fin k3, wc (ix2 j q) = wc' (ix2 j q'))
    (hbias : b (ix2 (0 : Fin 1) q) = b' (ix2 (0 : Fin 1) q')) :
    tripleAt x1 x2 x3 wa wb wc b p q = tripleAt x1' x2' x3' wa' wb' wc' b' p' q' := by
  unfold tripleAt
  rw [hbias]
  refine congrArg (· + _) (congrArg₂ (· + ·) (congrArg₂ (· + ·) (Finset.sum_congr rfl fun j _ => ?_)
    (Finset.sum_congr rfl fun j _ => ?_)) (Finset.sum_congr rfl fun j _ => ?_))
  · rw [h1 j, ha j]
  · rw [h2 j, hb j]
  · rw [h3 j, hc j]

/-- The two-part layer followed by the maximum with a threshold `z` (a rectifier when `z` is zero), as one array. -/
def pairRelu (z : EReal) (x1 : (⟨2, ![a, k1]⟩ : Shape).Idx → EReal) (x2 : (⟨2, ![a, k2]⟩ : Shape).Idx → EReal)
    (wa : (⟨2, ![k1, n]⟩ : Shape).Idx → EReal) (wb : (⟨2, ![k2, n]⟩ : Shape).Idx → EReal)
    (b : (⟨2, ![1, n]⟩ : Shape).Idx → EReal) : (⟨2, ![a, n]⟩ : Shape).Idx → EReal :=
  fun i => max (pairAt x1 x2 wa wb b (i 0) (i 1)) z

/-- The three-part layer followed by the maximum with a threshold `z`, as one array. -/
def tripleRelu (z : EReal) (x1 : (⟨2, ![a, k1]⟩ : Shape).Idx → EReal) (x2 : (⟨2, ![a, k2]⟩ : Shape).Idx → EReal)
    (x3 : (⟨2, ![a, k3]⟩ : Shape).Idx → EReal)
    (wa : (⟨2, ![k1, n]⟩ : Shape).Idx → EReal) (wb : (⟨2, ![k2, n]⟩ : Shape).Idx → EReal)
    (wc : (⟨2, ![k3, n]⟩ : Shape).Idx → EReal)
    (b : (⟨2, ![1, n]⟩ : Shape).Idx → EReal) : (⟨2, ![a, n]⟩ : Shape).Idx → EReal :=
  fun i => max (tripleAt x1 x2 x3 wa wb wc b (i 0) (i 1)) z

/-! ## What a kernel computes at an entry -/

/-- Two products into zero accumulators, added, plus the broadcast bias row, at (p, q). -/
theorem kernel_pair {φ₁ φ₂ φ₃ φ₄ : FTy} {d1 : DotDims ⟨2, ![a, k1]⟩ ⟨2, ![k1, n]⟩ ⟨2, ![a, n]⟩} (hd1 : RowsTimesMat d1)
    {d2 : DotDims ⟨2, ![a, k2]⟩ ⟨2, ![k2, n]⟩ ⟨2, ![a, n]⟩} (hd2 : RowsTimesMat d2)
    (x1 : FVec Ideal ⟨2, ![a, k1]⟩ φ₁) (x2 : FVec Ideal ⟨2, ![a, k2]⟩ φ₂)
    (wa : FVec Ideal ⟨2, ![k1, n]⟩ φ₃) (wb : FVec Ideal ⟨2, ![k2, n]⟩ φ₄) (b : FVec Ideal ⟨2, ![1, n]⟩ .f32)
    (hb : (⟨2, ![1, n]⟩ : Shape).Broadcasts ⟨2, ![a, n]⟩) (p : Fin a) (q : Fin n) :
    addf (addf (matmul d1 none x1 wa (constant (F := Ideal) ⟨2, ![a, n]⟩ .f32 0x00000000#32))
        (matmul d2 none x2 wb (constant (F := Ideal) ⟨2, ![a, n]⟩ .f32 0x00000000#32)))
      (broadcastTo ⟨2, ![a, n]⟩ b hb) (ix2 p q)
      = pairAt x1 x2 wa wb b p q :=
  congrArg₂ (· + ·) (congrArg₂ (· + ·) (matmul_rows hd1 x1 wa p q) (matmul_rows hd2 x2 wb p q))
    (broadcastTo_1b_ab_apply b hb p q)

/-- Three products into zero accumulators, added from the left, plus the broadcast bias row, at (p, q). -/
theorem kernel_triple {φ₁ φ₂ φ₃ φ₄ φ₅ φ₆ : FTy} {d1 : DotDims ⟨2, ![a, k1]⟩ ⟨2, ![k1, n]⟩ ⟨2, ![a, n]⟩} (hd1 : RowsTimesMat d1)
    {d2 : DotDims ⟨2, ![a, k2]⟩ ⟨2, ![k2, n]⟩ ⟨2, ![a, n]⟩} (hd2 : RowsTimesMat d2)
    {d3 : DotDims ⟨2, ![a, k3]⟩ ⟨2, ![k3, n]⟩ ⟨2, ![a, n]⟩} (hd3 : RowsTimesMat d3)
    (x1 : FVec Ideal ⟨2, ![a, k1]⟩ φ₁) (x2 : FVec Ideal ⟨2, ![a, k2]⟩ φ₂) (x3 : FVec Ideal ⟨2, ![a, k3]⟩ φ₃)
    (wa : FVec Ideal ⟨2, ![k1, n]⟩ φ₄) (wb : FVec Ideal ⟨2, ![k2, n]⟩ φ₅) (wc : FVec Ideal ⟨2, ![k3, n]⟩ φ₆)
    (b : FVec Ideal ⟨2, ![1, n]⟩ .f32)
    (hb : (⟨2, ![1, n]⟩ : Shape).Broadcasts ⟨2, ![a, n]⟩) (p : Fin a) (q : Fin n) :
    addf (addf (addf (matmul d1 none x1 wa (constant (F := Ideal) ⟨2, ![a, n]⟩ .f32 0x00000000#32))
          (matmul d2 none x2 wb (constant (F := Ideal) ⟨2, ![a, n]⟩ .f32 0x00000000#32)))
        (matmul d3 none x3 wc (constant (F := Ideal) ⟨2, ![a, n]⟩ .f32 0x00000000#32)))
      (broadcastTo ⟨2, ![a, n]⟩ b hb) (ix2 p q)
      = tripleAt x1 x2 x3 wa wb wc b p q :=
  congrArg₂ (· + ·) (congrArg₂ (· + ·) (congrArg₂ (· + ·) (matmul_rows hd1 x1 wa p q) (matmul_rows hd2 x2 wb p q))
      (matmul_rows hd3 x3 wc p q))
    (broadcastTo_1b_ab_apply b hb p q)

/-! ## What a reference computes at an entry -/

/-- A layer on the joined row with the whole weight matrix is the two-part layer on the matrix's two row blocks. -/
theorem dense2At_eq_pairAt (hk : k1 + k2 = k) (x1 : (⟨2, ![a, k1]⟩ : Shape).Idx → EReal) (x2 : (⟨2, ![a, k2]⟩ : Shape).Idx → EReal)
    (w : (⟨2, ![k, n]⟩ : Shape).Idx → EReal) (b : (⟨2, ![1, n]⟩ : Shape).Idx → EReal)
    (h1 : (⟨2, ![k, n]⟩ : Shape).Slices ![0, 0] ⟨2, ![k1, n]⟩) (h2 : (⟨2, ![k, n]⟩ : Shape).Slices ![k1, 0] ⟨2, ![k2, n]⟩)
    (p : Fin a) (q : Fin n) :
    dense2At hk x1 x2 w b p q
      = pairAt x1 x2 (extractStridedSlice ⟨2, ![k1, n]⟩ ![0, 0] w h1) (extractStridedSlice ⟨2, ![k2, n]⟩ ![k1, 0] w h2) b p q := by
  unfold dense2At pairAt
  refine congrArg (· + _) (congrArg₂ (· + ·) (Finset.sum_congr rfl fun j _ => congrArg (x1 (ix2 p j) * ·) ?_)
    (Finset.sum_congr rfl fun j _ => congrArg (x2 (ix2 p j) * ·) ?_))
  · exact (slice2_axis0_apply 0 w h1 j q ⟨j.val, by have := j.isLt; omega⟩ (Nat.zero_add _).symm).symm
  · exact (slice2_axis0_apply k1 w h2 j q ⟨k1 + j.val, by have := j.isLt; omega⟩ rfl).symm

/-- The host's ONE product over three arrays joined along the columns, plus the bias vector spread as a row and down the
    rows, at (p, q): the three-part layer on the weight matrix's three consecutive row blocks. -/
theorem ref_triple (hk : k1 + k2 + k3 = k) {d : DotDims ⟨2, ![a, k]⟩ ⟨2, ![k, n]⟩ ⟨2, ![a, n]⟩} (hd : RowsTimesMat d)
    (x1 : FVec Ideal ⟨2, ![a, k1]⟩ .f32) (x2 : FVec Ideal ⟨2, ![a, k2]⟩ .f32) (x3 : FVec Ideal ⟨2, ![a, k3]⟩ .f32)
    (w : FVec Ideal ⟨2, ![k, n]⟩ .f32) (b : FVec Ideal ⟨2, ![1, n]⟩ .f32)
    (hc : Shape.Concatenates [(⟨2, ![a, k1]⟩ : Shape), ⟨2, ![a, k2]⟩, ⟨2, ![a, k3]⟩] ⟨2, ![a, k]⟩ 1)
    (hbc : (⟨2, ![1, n]⟩ : Shape).BroadcastsInDim ⟨2, ![a, n]⟩ (![0, 1] : Fin 2 → Fin 2))
    (o3 : ℕ) (ho : o3 = k1 + k2)
    (h1 : (⟨2, ![k, n]⟩ : Shape).Slices ![0, 0] ⟨2, ![k1, n]⟩) (h2 : (⟨2, ![k, n]⟩ : Shape).Slices ![k1, 0] ⟨2, ![k2, n]⟩)
    (h3 : (⟨2, ![k, n]⟩ : Shape).Slices ![o3, 0] ⟨2, ![k3, n]⟩) (p : Fin a) (q : Fin n) :
    addf (Host.dotGeneral d none
        (concatenate ⟨2, ![a, k]⟩ 1 [⟨⟨2, ![a, k1]⟩, x1⟩, ⟨⟨2, ![a, k2]⟩, x2⟩, ⟨⟨2, ![a, k3]⟩, x3⟩] hc) w)
      (broadcastInDim ⟨2, ![a, n]⟩ (![0, 1] : Fin 2 → Fin 2) hbc b) (ix2 p q)
      = tripleAt x1 x2 x3 (extractStridedSlice ⟨2, ![k1, n]⟩ ![0, 0] w h1) (extractStridedSlice ⟨2, ![k2, n]⟩ ![k1, 0] w h2)
          (extractStridedSlice ⟨2, ![k3, n]⟩ ![o3, 0] w h3) b p q := by
  subst ho
  refine congrArg₂ (· + ·) ((dotGeneral_rows hd _ w p q).trans ((sum_split hk _).trans ?_)) (row_to_mat_apply b hbc p q)
  refine congrArg₂ (· + ·) ((sum_split (rfl : k1 + k2 = k1 + k2) _).trans (congrArg₂ (· + ·) ?_ ?_)) ?_
  · refine Finset.sum_congr rfl fun j _ => congrArg₂ (· * ·) ?_ ?_
    · refine concatenate_apply_piece (t := ⟨2, ![a, k]⟩) (1 : Fin 2) [⟨⟨2, ![a, k1]⟩, x1⟩, ⟨⟨2, ![a, k2]⟩, x2⟩, ⟨⟨2, ![a, k3]⟩, x3⟩] hc _ 0 (by simp) ⟨2, ![a, k1]⟩ x1 rfl rfl 0 rfl
        (ix2 p j) (fun ax hax => ?_) ?_
      · match ax with
        | ⟨0, _⟩ => rfl
        | ⟨1, _⟩ => exact absurd rfl hax
      · show 0 + j.val = j.val
        omega
    · exact (slice2_axis0_apply 0 w h1 j q ⟨j.val, by have := j.isLt; omega⟩ (Nat.zero_add _).symm).symm
  · refine Finset.sum_congr rfl fun j _ => congrArg₂ (· * ·) ?_ ?_
    · refine concatenate_apply_piece (t := ⟨2, ![a, k]⟩) (1 : Fin 2) [⟨⟨2, ![a, k1]⟩, x1⟩, ⟨⟨2, ![a, k2]⟩, x2⟩, ⟨⟨2, ![a, k3]⟩, x3⟩] hc _ 1 (by simp) ⟨2, ![a, k2]⟩ x2 rfl rfl k1 ?_
        (ix2 p j) (fun ax hax => ?_) ?_
      · show (if h : (2 : ℕ) = 2 then k1 else 0) + 0 = k1
        rw [dif_pos rfl]; omega
      · match ax with
        | ⟨0, _⟩ => rfl
        | ⟨1, _⟩ => exact absurd rfl hax
      · show k1 + j.val = k1 + j.val
        rfl
    · exact (slice2_axis0_apply k1 w h2 j q ⟨k1 + j.val, by have := j.isLt; omega⟩ rfl).symm
  · refine Finset.sum_congr rfl fun j _ => congrArg₂ (· * ·) ?_ ?_
    · refine concatenate_apply_piece (t := ⟨2, ![a, k]⟩) (1 : Fin 2) [⟨⟨2, ![a, k1]⟩, x1⟩, ⟨⟨2, ![a, k2]⟩, x2⟩, ⟨⟨2, ![a, k3]⟩, x3⟩] hc _ 2 (by simp) ⟨2, ![a, k3]⟩ x3 rfl rfl (k1 + k2) ?_
        (ix2 p j) (fun ax hax => ?_) ?_
      · show (if h : (2 : ℕ) = 2 then k1 else 0) + ((if h : (2 : ℕ) = 2 then k2 else 0) + 0) = k1 + k2
        rw [dif_pos rfl, dif_pos rfl]; omega
      · match ax with
        | ⟨0, _⟩ => rfl
        | ⟨1, _⟩ => exact absurd rfl hax
      · show k1 + k2 + j.val = k1 + k2 + j.val
        rfl
    · exact (slice2_axis0_apply (k1 + k2) w h3 j q ⟨k1 + k2 + j.val, by have := j.isLt; omega⟩ rfl).symm

end Cert.LibSplitLayers

end
-- ==== Proof.Spec.lean ====
/-
  The network both programs compute, as one function of the nine argument arrays at the ideal values.

  Edges carry a destination node and a source node (rows 0 and 1 of the edge index array; a negative source is wrapped
  by the node count before the rows are looked up). Each edge's message is the rectified two-part dense layer of its
  source node's feature row and its attribute row, with the first 64 and the last 32 rows of the first weight matrix.
  The messages are added up at their destination nodes, starting from zero. Each node's output is the rectified
  three-part dense layer of its feature row, its aggregated message row and its graph's global row (looked up by the
  node's graph id, a negative id wrapped by the graph count), with rows 0–63, 64–127 and 128–159 of the second
  weight matrix. The row look-ups and the scatter-add are the host's own operations, carried here as they are printed
  and never opened: both programs apply the same ones.
-/
import proofs.«129833_j44573170598878_1_alg».proof.KernelIdeal
import proofs.«129833_j44573170598878_1_alg».proof.Proof.LibSplitLayers

noncomputable section

namespace Cert.KernelIdeal.Hand

open Cert.KernelIdeal
open Idealize.ShloMosaic Idealize.ShloMosaic.ValueIdx
open Cert.LibSplitLayers

variable [Cert.KernelIdeal.Facts]
open Facts₀ Facts

/-- The threshold both rectifiers compare with: the f32 word of all zero bits, read at the ideal values. -/
abbrev zeroWord : EReal := Ideal.ofBits .f32 0x00000000#32

/-- The source nodes' feature rows, one per edge. -/
def srcRows (x : (⟨S50000x64, .f32⟩ : BufTy).Contents (Elt Ideal)) (ei : (⟨S2x800000, .i32⟩ : BufTy).Contents (Elt Ideal)) :
    (⟨S800000x64, .f32⟩ : BufTy).Contents (Elt Ideal) :=
  Host.gather gather_S50000x64_S800000x1_S800000x64_1_0_n_n_0_1_164 x
    (broadcastInDim S800000x1 ![0] bcast_S800000_S800000x1_0
      (select (cmpi .slt (shapeCast _ (extractStridedSlice S1x800000 ![1, 0] ei slices_S2x800000_S1x800000_1_0) shapeCasts_S1x800000_S800000)
          (broadcastInDim S800000 ![] bcast_S_S800000 (constantI S_ 32 0#32)))
        (addi (shapeCast _ (extractStridedSlice S1x800000 ![1, 0] ei slices_S2x800000_S1x800000_1_0) shapeCasts_S1x800000_S800000)
          (broadcastInDim S800000 ![] bcast_S_S800000 (constantI S_ 32 50000#32)))
        (shapeCast _ (extractStridedSlice S1x800000 ![1, 0] ei slices_S2x800000_S1x800000_1_0) shapeCasts_S1x800000_S800000)))

/-- Each node's graph's global row. -/
def graphRows (u : (⟨S256x32, .f32⟩ : BufTy).Contents (Elt Ideal)) (batch : (⟨S50000, .i32⟩ : BufTy).Contents (Elt Ideal)) :
    (⟨S50000x32, .f32⟩ : BufTy).Contents (Elt Ideal) :=
  Host.gather gather_S256x32_S50000x1_S50000x32_1_0_n_n_0_1_132 u
    (broadcastInDim S50000x1 ![0] bcast_S50000_S50000x1_0
      (select (cmpi .slt batch (broadcastInDim S50000 ![] bcast_S_S50000 (constantI S_ 32 0#32)))
        (addi batch (broadcastInDim S50000 ![] bcast_S_S50000 (constantI S_ 32 256#32)))
        batch))

/-- The messages added up at their destination nodes, from zero. -/
def aggregate (ei : (⟨S2x800000, .i32⟩ : BufTy).Contents (Elt Ideal)) (msgs : (⟨S800000x64, .f32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0
      (shapeCast _ (extractStridedSlice S1x800000 ![0, 0] ei slices_S2x800000_S1x800000_0_0) shapeCasts_S1x800000_S800000))
    msgs

/-- The edge messages. -/
def messages (x : (⟨S50000x64, .f32⟩ : BufTy).Contents (Elt Ideal)) (ei : (⟨S2x800000, .i32⟩ : BufTy).Contents (Elt Ideal))
    (ea : (⟨S800000x32, .f32⟩ : BufTy).Contents (Elt Ideal)) (w1 : (⟨S96x64, .f32⟩ : BufTy).Contents (Elt Ideal))
    (b1 : (⟨S64, .f32⟩ : BufTy).Contents (Elt Ideal)) : (⟨S800000x64, .f32⟩ : BufTy).Contents (Elt Ideal) :=
  pairRelu zeroWord (srcRows x ei : S800000x64.Idx → EReal) (ea : S800000x32.Idx → EReal)
    (extractStridedSlice S64x64 ![0, 0] w1 slices_S96x64_S64x64_0_0 : S64x64.Idx → EReal)
    (extractStridedSlice S32x64 ![64, 0] w1 slices_S96x64_S32x64_64_0 : S32x64.Idx → EReal)
    (shapeCast S1x64 b1 shapeCasts_S64_S1x64 : S1x64.Idx → EReal)

/-- The network's output. -/
def network (x : (⟨S50000x64, .f32⟩ : BufTy).Contents (Elt Ideal)) (ei : (⟨S2x800000, .i32⟩ : BufTy).Contents (Elt Ideal))
    (ea : (⟨S800000x32, .f32⟩ : BufTy).Contents (Elt Ideal)) (u : (⟨S256x32, .f32⟩ : BufTy).Contents (Elt Ideal))
    (batch : (⟨S50000, .i32⟩ : BufTy).Contents (Elt Ideal)) (w1 : (⟨S96x64, .f32⟩ : BufTy).Contents (Elt Ideal))
    (b1 : (⟨S64, .f32⟩ : BufTy).Contents (Elt Ideal)) (w2 : (⟨S160x64, .f32⟩ : BufTy).Contents (Elt Ideal))
    (b2 : (⟨S64, .f32⟩ : BufTy).Contents (Elt Ideal)) : (⟨S50000x64, .f32⟩ : BufTy).Contents (Elt Ideal) :=
  tripleRelu zeroWord (x : S50000x64.Idx → EReal) (aggregate ei (messages x ei ea w1 b1) : S50000x64.Idx → EReal)
    (graphRows u batch : S50000x32.Idx → EReal)
    (extractStridedSlice S64x64 ![0, 0] w2 slices_S160x64_S64x64_0_0 : S64x64.Idx → EReal)
    (extractStridedSlice S64x64 ![64, 0] w2 slices_S160x64_S64x64_64_0 : S64x64.Idx → EReal)
    (extractStridedSlice S32x64 ![128, 0] w2 slices_S160x64_S32x64_128_0 : S32x64.Idx → EReal)
    (shapeCast S1x64 b2 shapeCasts_S64_S1x64 : S1x64.Idx → EReal)

end Cert.KernelIdeal.Hand

end
-- ==== Proof.LibPlainRecord.lean ====
/-
  A dimension record between `[a, k]`, `[k, n]` and `[a, n]` whose six lists are those of a plain matrix product
  (contract the left operand's axis 1 with the right operand's axis 0, keep the left operand's axis 0 and the right
  operand's axis 1, no batch axis) says what a plain product says: one contracted axis of extent `k`, the left operand
  read at (the result's row, the contracted coordinate), the right operand at (the contracted coordinate, the result's
  column). A literal record discharges the six list equations by `rfl`.
-/
import proofs.«129833_j44573170598878_1_alg».proof.Proof.LibMatRows

noncomputable section

namespace Cert.LibPlainRecord

open Idealize.ShloMosaic Idealize.ShloMosaic.ValueIdx Cert.LibMatRows

variable {a k n : ℕ} (d : DotDims ⟨2, ![a, k]⟩ ⟨2, ![k, n]⟩ ⟨2, ![a, n]⟩)

/-- A coordinate of an index read at two spellings of one position. -/
theorem coord_val_congr {s : Shape} (i : s.Idx) (p q : ℕ) (hp : p < s.rank) (hq : q < s.rank) (h : p = q) :
    (i ⟨p, hp⟩).val = (i ⟨q, hq⟩).val := by
  subst h; rfl

/-- A record with a plain product's six lists is a plain product: the contraction shape is the one axis of extent `k`;
    on the kept axes the operand index reads the result index (no batch axis comes before them), on the contracted
    axes the contraction index. -/
theorem rowsTimesMat_of_lists (h1 : d.lhsContracting = [1]) (h2 : d.rhsContracting = [0]) (h3 : d.lhsNonContracting = [0])
    (h4 : d.rhsNonContracting = [1]) (h5 : d.lhsBatch = []) (h6 : d.rhsBatch = []) : RowsTimesMat d where
  rank := d.rank_contr.trans (by rw [h1]; rfl)
  size := by
    have hp : 0 < d.lhsContracting.length := by rw [h1]; exact Nat.one_pos
    rw [d.size_contr 0 hp, List.getElem_of_eq h1 hp]
    rfl
  l0 := fun i q => by
    have hb : (0 : Fin 2) ∉ d.lhsBatch := by rw [h5]; exact List.not_mem_nil
    have hn : (0 : Fin 2) ∈ d.lhsNonContracting := by rw [h3]; exact List.mem_singleton.mpr rfl
    unfold DotDims.lhsIdx
    rw [dif_neg hb, dif_pos hn]
    simp only [Fin.val_cast]
    exact coord_val_congr i _ _ _ _ (by rw [h5, h3]; rfl)
  l1 := fun i q => d.lhsIdx_val_of_single h1 i q
  r0 := fun i q => d.rhsIdx_val_of_single h2 i q
  r1 := fun i q => by
    have hb : (1 : Fin 2) ∉ d.rhsBatch := by rw [h6]; exact List.not_mem_nil
    have hn : (1 : Fin 2) ∈ d.rhsNonContracting := by rw [h4]; exact List.mem_singleton.mpr rfl
    unfold DotDims.rhsIdx
    rw [dif_neg hb, dif_pos hn]
    simp only [Fin.val_cast]
    exact coord_val_congr i _ _ _ _ (by rw [h5, h3, h4]; rfl)

end Cert.LibPlainRecord

end
-- ==== Proof.Payloads.lean ====
/-
  What each kernel body stores, read at an entry of its block, at the ideal values.

  The edge kernel rounds its two input blocks and its two weight blocks to bf16 (the identity on extended reals),
  multiplies each input block with its weight block into a zero accumulator, adds the two products and the broadcast
  bias row, and takes the maximum with zero: entry (p, q) is  max (Σ_j x(p, j)·wa(j, q) + Σ_j e(p, j)·wb(j, q) + b(q)) 0.
  The node kernel does the same with three input blocks and three weight blocks, the products added from the left.
-/
import proofs.«129833_j44573170598878_1_alg».proof.Proof.Gen.KernelIdeal.Skeleton
import proofs.«129833_j44573170598878_1_alg».proof.Proof.Spec
import proofs.«129833_j44573170598878_1_alg».proof.Proof.LibPlainRecord
import Idealize.ShloMosaic.Lib.Pipeline.Value

noncomputable section

namespace Cert.KernelIdeal.Hand

open Cert.KernelIdeal Cert.KernelIdeal.Gen
open Idealize.ShloMosaic Idealize.ShloMosaic.ValueIdx
open Cert.LibMatRows Cert.LibPlainRecord Cert.LibSplitLayers

variable [Cert.KernelIdeal.Facts]

/-! ## The four products are plain matrix products -/

theorem rows_edge_x : RowsTimesMat dot_S8000x64_S64x64_S8000x64_1_0_0_1_n_n :=
  rowsTimesMat_of_lists _ rfl rfl rfl rfl rfl rfl
theorem rows_edge_e : RowsTimesMat dot_S8000x32_S32x64_S8000x64_1_0_0_1_n_n :=
  rowsTimesMat_of_lists _ rfl rfl rfl rfl rfl rfl
theorem rows_node_x : RowsTimesMat dot_S5000x64_S64x64_S5000x64_1_0_0_1_n_n :=
  rowsTimesMat_of_lists _ rfl rfl rfl rfl rfl rfl
theorem rows_node_u : RowsTimesMat dot_S5000x32_S32x64_S5000x64_1_0_0_1_n_n :=
  rowsTimesMat_of_lists _ rfl rfl rfl rfl rfl rfl

/-! ## The stored values at an entry -/

/-- The edge kernel's stored value at (p, q) of its 8000-row block. -/
theorem edge_payload_apply (x : Vec Ideal S8000x64 .f32) (e : Vec Ideal S8000x32 .f32) (wa : Vec Ideal S64x64 .f32)
    (wb : Vec Ideal S32x64 .f32) (b : Vec Ideal S1x64 .f32) (p : Fin 8000) (q : Fin 64) :
    k0_pay1 (F := Ideal) x e wa wb b (ix2 p q) = max (pairAt x e wa wb b p q) zeroWord := by
  unfold k0_pay1
  simp only [shapeCast_self]
  exact congrArg (max · zeroWord) (kernel_pair rows_edge_x rows_edge_e _ _ _ _ b broadcasts_S1x64_S8000x64 p q)

/-- The node kernel's stored value at (p, q) of its 5000-row block. -/
theorem node_payload_apply (x : Vec Ideal S5000x64 .f32) (g : Vec Ideal S5000x64 .f32) (u : Vec Ideal S5000x32 .f32)
    (wa : Vec Ideal S64x64 .f32) (wb : Vec Ideal S64x64 .f32) (wc : Vec Ideal S32x64 .f32) (b : Vec Ideal S1x64 .f32)
    (p : Fin 5000) (q : Fin 64) :
    k1_pay1 (F := Ideal) x g u wa wb wc b (ix2 p q) = max (tripleAt x g u wa wb wc b p q) zeroWord := by
  unfold k1_pay1
  simp only [shapeCast_self]
  exact congrArg (max · zeroWord) (kernel_triple rows_node_x rows_node_x rows_node_u _ _ _ _ _ _ b broadcasts_S1x64_S5000x64 p q)

end Cert.KernelIdeal.Hand

end
-- ==== Proof.EdgeRegion.lean ====
/-
  The first region (the edge layer) as a function of whole arrays, at whatever contents `V` the region is entered with.

  The region's grid has 100 points. At point t the pipeline stages rows 8000·t … 8000·t + 7999 of the gathered node
  rows and of the edge attributes, and the two weight blocks and the bias row whole (their block index is (0, 0) at
  every point); the body stores the rectified two-part layer of those blocks, and the pipeline writes the stored
  block back to rows 8000·t … 8000·t + 7999 of the output. Entry (r, q) of the output depends on row r of the two
  inputs only, so what point t writes back is block t of ONE function of the whole arrays (`pairRelu`), and the 100
  blocks cover the output: after the region the output array is that function.
-/
import proofs.«129833_j44573170598878_1_alg».proof.Proof.Gen.KernelIdeal.Frame
import proofs.«129833_j44573170598878_1_alg».proof.Proof.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.LibSplitLayers

variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps of the first region, decided over its 100 points: the row-tiled windows (gathered rows, edge
    attributes, output) sit at block (t, 0), the resident ones (weights, bias) at block (0, 0). -/
theorem edge_index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of the gathered-rows block at point t is row 8000·t + p of the array. -/
theorem edge_rows_x (c : Dev nD) (t : Fin cfg0.N) (p : Fin 8000) (r : Fin 800000) (hr : r.val = t.val * 8000 + p.val) (j : Fin 64) :
    (iblk0 V c 0 t : Vec Ideal S8000x64 .f32) (ix2 p j) = (V c main_v10 : S800000x64.Idx → EReal) (ix2 r j) := by
  obtain ⟨e0, e1, -⟩ := edge_index_facts t
  unfold iblk0
  rw [View.read_apply]
  show V c main_v10 _ = V c main_v10 _
  congr 1
  funext a
  apply Fin.ext
  match a with
  | ⟨0, _⟩ => show win0_0.index t (0 : Fin 2) * 8000 + 1 * p.val = r.val; rw [e0, hr]; omega
  | ⟨1, _⟩ => show win0_0.index t (1 : Fin 2) * 64 + 1 * j.val = j.val; rw [e1]; omega

/-- Row p of the edge-attribute block at point t is row 8000·t + p of the array. -/
theorem edge_rows_e (c : Dev nD) (t : Fin cfg0.N) (p : Fin 8000) (r : Fin 800000) (hr : r.val = t.val * 8000 + p.val) (j : Fin 32) :
    (iblk0 V c 1 t : Vec Ideal S8000x32 .f32) (ix2 p j) = (V c main_arg2 : S800000x32.Idx → EReal) (ix2 r j) := by
  obtain ⟨-, -, e0, e1, -⟩ := edge_index_facts t
  unfold iblk0
  rw [View.read_apply]
  show V c main_arg2 _ = V c main_arg2 _
  congr 1
  funext a
  apply Fin.ext
  match a with
  | ⟨0, _⟩ => show win0_1.index t (0 : Fin 2) * 8000 + 1 * p.val = r.val; rw [e0, hr]; omega
  | ⟨1, _⟩ => show win0_1.index t (1 : Fin 2) * 32 + 1 * j.val = j.val; rw [e1]; omega

/-- The node-rows weight block at any point is the whole array. -/
theorem edge_block_wa (c : Dev nD) (t : Fin cfg0.N) (j : Fin 64) (q : Fin 64) :
    (iblk0 V c 2 t : Vec Ideal S64x64 .f32) (ix2 j q) = (V c main_v18 : S64x64.Idx → EReal) (ix2 j q) := by
  obtain ⟨-, -, -, -, e0, e1, -⟩ := edge_index_facts t
  unfold iblk0
  rw [View.read_apply]
  show V c main_v18 _ = V c main_v18 _
  congr 1
  funext a
  apply Fin.ext
  match a with
  | ⟨0, _⟩ => show win0_2.index t (0 : Fin 2) * 64 + 1 * j.val = j.val; rw [e0]; omega
  | ⟨1, _⟩ => show win0_2.index t (1 : Fin 2) * 64 + 1 * q.val = q.val; rw [e1]; omega

/-- The edge-attribute weight block at any point is the whole array. -/
theorem edge_block_wb (c : Dev nD) (t : Fin cfg0.N) (j : Fin 32) (q : Fin 64) :
    (iblk0 V c 3 t : Vec Ideal S32x64 .f32) (ix2 j q) = (V c main_v19 : S32x64.Idx → EReal) (ix2 j q) := by
  obtain ⟨-, -, -, -, -, -, e0, e1, -⟩ := edge_index_facts t
  unfold iblk0
  rw [View.read_apply]
  show V c main_v19 _ = V c main_v19 _
  congr 1
  funext a
  apply Fin.ext
  match a with
  | ⟨0, _⟩ => show win0_3.index t (0 : Fin 2) * 32 + 1 * j.val = j.val; rw [e0]; omega
  | ⟨1, _⟩ => show win0_3.index t (1 : Fin 2) * 64 + 1 * q.val = q.val; rw [e1]; omega

/-- The bias-row block at any point is the whole array. -/
theorem edge_block_b (c : Dev nD) (t : Fin cfg0.N) (q : Fin 64) :
    (iblk0 V c 4 t : Vec Ideal S1x64 .f32) (ix2 (0 : Fin 1) q) = (V c main_v20 : S1x64.Idx → EReal) (ix2 (0 : Fin 1) q) := by
  obtain ⟨-, -, -, -, -, -, -, -, e0, e1, -⟩ := edge_index_facts t
  unfold iblk0
  rw [View.read_apply]
  show V c main_v20 _ = V c main_v20 _
  congr 1
  funext a
  apply Fin.ext
  match a with
  | ⟨0, _⟩ => show win0_4.index t (0 : Fin 2) * 1 + 1 * 0 = 0; rw [e0]
  | ⟨1, _⟩ => show win0_4.index t (1 : Fin 2) * 64 + 1 * q.val = q.val; rw [e1]; omega

/-- The edge layer of the arrays the region is entered with. -/
abbrev edgeArray (c : Dev nD) : S800000x64.Idx → EReal :=
  pairRelu zeroWord (V c main_v10 : S800000x64.Idx → EReal) (V c main_arg2 : S800000x32.Idx → EReal)
    (V c main_v18 : S64x64.Idx → EReal) (V c main_v19 : S32x64.Idx → EReal) (V c main_v20 : S1x64.Idx → EReal)

/-- What point t writes back is block t of the edge layer of the whole arrays. -/
theorem edge_flushed (c : Dev nD) (t : Fin cfg0.N) :
    (dat0 V c).flushed 5 t = ((cfg0.win 5).blk t).view.read (Elt Ideal) (edgeArray V c) := by
  show (cfg0.win 5).cut (grid0.coords t) ((dat0 V c).after 5 t) = _
  rw [after0_5]
  unfold out0_5
  rw [View.canon_unit_zero zero_offsets]
  simp only [View.ld_unit_zero (S := S8000x64) zero_offsets, View.ld_unit_zero (S := S8000x32) zero_offsets,
    View.ld_unit_zero (S := S64x64) zero_offsets, View.ld_unit_zero (S := S32x64) zero_offsets,
    View.ld_unit_zero (S := S1x64) zero_offsets]
  obtain ⟨-, -, -, -, -, -, -, -, -, -, e0, e1⟩ := edge_index_facts t
  have hN : t.val < 100 := by have := t.isLt; have h100 : cfg0.N = 100 := N_0; omega
  funext y
  obtain ⟨p, q, rfl⟩ : ∃ (p : Fin 8000) (q : Fin 64), y = ix2 p q := ⟨y 0, y 1, eq_ix2 y⟩
  have hrow : t.val * 8000 + p.val < 800000 := by have := p.isLt; omega
  have hemb : ((cfg0.win 5).blk t).view.emb (ix2 p q) = (ix2 (⟨t.val * 8000 + p.val, hrow⟩ : Fin 800000) q : S800000x64.Idx) := by
    funext a
    apply Fin.ext
    match a with
    | ⟨0, _⟩ => show win0_5.index t (0 : Fin 2) * 8000 + 1 * p.val = t.val * 8000 + p.val; rw [e0]; omega
    | ⟨1, _⟩ => show win0_5.index t (1 : Fin 2) * 64 + 1 * q.val = q.val; rw [e1]; omega
  show k0_pay1 (F := Ideal) (iblk0 V c 0 t) (iblk0 V c 1 t) (iblk0 V c 2 t) (iblk0 V c 3 t) (iblk0 V c 4 t) (ix2 p q)
    = edgeArray V c (((cfg0.win 5).blk t).view.emb (ix2 p q))
  rw [hemb]
  refine (edge_payload_apply _ _ _ _ _ p q).trans ?_
  show max _ zeroWord = max _ zeroWord
  refine congrArg (max · zeroWord) ?_
  exact pairAt_congr (fun j => edge_rows_x V c t p _ rfl j) (fun j => edge_rows_e V c t p _ rfl j)
    (fun j => edge_block_wa V c t j q) (fun j => edge_block_wb V c t j q) (edge_block_b V c t q)

/-- An index of the output array is in point t's block iff each coordinate is in the block's range on its axis. -/
theorem edge_mem_blk (t : Fin cfg0.N) (i : S800000x64.Idx) :
    i ∈ ((cfg0.win 5).blk t).view.set ↔ ∀ a : Fin 2, win0_5.index t a * S8000x64.size a ≤ (i a).val ∧ (i a).val < win0_5.index t a * S8000x64.size a + S8000x64.size a := by
  show i ∈ ((View.whole main_v21).slice (win0_5.rect t)).set ↔ _
  rw [View.set_slice_whole, Rect.mem_set_unit]
  exact Iff.rfl

/-- Every index of the output array is in some point's block: row r in point r / 8000's. -/
theorem edge_cover (i : S800000x64.Idx) : ∃ t : Fin cfg0.N, (cfg0.win 5).flush t = true ∧ i ∈ ((cfg0.win 5).blk t).view.set := by
  have hi0 : (i 0).val < 800000 := (i 0).isLt
  have hi1 : (i 1).val < 64 := (i 1).isLt
  have hN : cfg0.N = 100 := N_0
  let t : Fin cfg0.N := ⟨(i 0).val / 8000, by rw [hN]; omega⟩
  obtain ⟨-, -, -, -, -, -, -, -, -, -, e0, e1⟩ := edge_index_facts t
  have ht : t.val = (i 0).val / 8000 := rfl
  refine ⟨t, flush0_5 t, ?_⟩
  rw [edge_mem_blk]
  intro a
  match a with
  | ⟨0, _⟩ => show win0_5.index t (0 : Fin 2) * 8000 ≤ (i 0).val ∧ (i 0).val < win0_5.index t (0 : Fin 2) * 8000 + 8000; rw [e0, ht]; omega
  | ⟨1, _⟩ => show win0_5.index t (1 : Fin 2) * 64 ≤ (i 1).val ∧ (i 1).val < win0_5.index t (1 : Fin 2) * 64 + 64; rw [e1]; omega

/-- After the region its output array is the edge layer of the arrays it was entered with. -/
theorem edge_array (c : Dev nD) : (dat0 V c).arrAt 5 cfg0.N = edgeArray V c :=
  (dat0 V c).arrAt_eq_of_cover 5 (edgeArray V c) (fun t _ => edge_flushed V c t) edge_cover

end Cert.KernelIdeal.Hand

end
-- ==== Proof.NodeRegion.lean ====
/-
  The second region (the node layer) as a function of whole arrays, at whatever contents `V` the region is entered with.

  The region's grid has 10 points. At point t the pipeline stages rows 5000·t … 5000·t + 4999 of the node features, of
  the aggregated messages and of the per-node graph rows, and the three weight blocks and the bias row whole (block
  index (0, 0) at every point); the body stores the rectified three-part layer of those blocks, written back to rows
  5000·t … 5000·t + 4999 of the output. Entry (r, q) of the output depends on row r of the three inputs only, so what
  point t writes back is block t of ONE function of the whole arrays (`tripleRelu`), and the 10 blocks cover the output.
-/
import proofs.«129833_j44573170598878_1_alg».proof.Proof.Gen.KernelIdeal.Frame
import proofs.«129833_j44573170598878_1_alg».proof.Proof.Payloads
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
open Cert.LibSplitLayers

variable (V : (c : Dev nD) → (b : Ref sig .tc) → Buf (Elt Ideal) ((c : Thread nD τ).loc b))

theorem zero_offsets' : (![0, 0] : Fin 2 → Nat) = fun _ => 0 := funext fun a => by fin_cases a <;> rfl

/-- The printed index maps of the second region, decided over its 10 points: the row-tiled windows (node features,
    aggregated messages, graph rows, output) sit at block (t, 0), the resident ones (weights, bias) at block (0, 0). -/
theorem node_index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row p of the node-feature block at point t is row 5000·t + p of the array. -/
theorem node_rows_x (c : Dev nD) (t : Fin cfg1.N) (p : Fin 5000) (r : Fin 50000) (hr : r.val = t.val * 5000 + p.val) (j : Fin 64) :
    (iblk1 V c 0 t : Vec Ideal S5000x64 .f32) (ix2 p j) = (V c main_arg0 : S50000x64.Idx → EReal) (ix2 r j) := by
  obtain ⟨e0, e1, -⟩ := node_index_facts t
  unfold iblk1
  rw [View.read_apply]
  show V c main_arg0 _ = V c main_arg0 _
  congr 1
  funext a
  apply Fin.ext
  match a with
  | ⟨0, _⟩ => show win1_0.index t (0 : Fin 2) * 5000 + 1 * p.val = r.val; rw [e0, hr]; omega
  | ⟨1, _⟩ => show win1_0.index t (1 : Fin 2) * 64 + 1 * j.val = j.val; rw [e1]; omega

/-- Row p of the aggregated-messages block at point t is row 5000·t + p of the array. -/
theorem node_rows_g (c : Dev nD) (t : Fin cfg1.N) (p : Fin 5000) (r : Fin 50000) (hr : r.val = t.val * 5000 + p.val) (j : Fin 64) :
    (iblk1 V c 1 t : Vec Ideal S5000x64 .f32) (ix2 p j) = (V c main_v24 : S50000x64.Idx → EReal) (ix2 r j) := by
  obtain ⟨-, -, e0, e1, -⟩ := node_index_facts t
  unfold iblk1
  rw [View.read_apply]
  show V c main_v24 _ = V c main_v24 _
  congr 1
  funext a
  apply Fin.ext
  match a with
  | ⟨0, _⟩ => show win1_1.index t (0 : Fin 2) * 5000 + 1 * p.val = r.val; rw [e0, hr]; omega
  | ⟨1, _⟩ => show win1_1.index t (1 : Fin 2) * 64 + 1 * j.val = j.val; rw [e1]; omega

/-- Row p of the graph-rows block at point t is row 5000·t + p of the array. -/
theorem node_rows_u (c : Dev nD) (t : Fin cfg1.N) (p : Fin 5000) (r : Fin 50000) (hr : r.val = t.val * 5000 + p.val) (j : Fin 32) :
    (iblk1 V c 2 t : Vec Ideal S5000x32 .f32) (ix2 p j) = (V c main_v17 : S50000x32.Idx → EReal) (ix2 r j) := by
  obtain ⟨-, -, -, -, e0, e1, -⟩ := node_index_facts t
  unfold iblk1
  rw [View.read_apply]
  show V c main_v17 _ = V c main_v17 _
  congr 1
  funext a
  apply Fin.ext
  match a with
  | ⟨0, _⟩ => show win1_2.index t (0 : Fin 2) * 5000 + 1 * p.val = r.val; rw [e0, hr]; omega
  | ⟨1, _⟩ => show win1_2.index t (1 : Fin 2) * 32 + 1 * j.val = j.val; rw [e1]; omega

/-- The node-feature weight block at any point is the whole array. -/
theorem node_block_wa (c : Dev nD) (t : Fin cfg1.N) (j : Fin 64) (q : Fin 64) :
    (iblk1 V c 3 t : Vec Ideal S64x64 .f32) (ix2 j q) = (V c main_v25 : S64x64.Idx → EReal) (ix2 j q) := by
  obtain ⟨-, -, -, -, -, -, e0, e1, -⟩ := node_index_facts t
  unfold iblk1
  rw [View.read_apply]
  show V c main_v25 _ = V c main_v25 _
  congr 1
  funext a
  apply Fin.ext
  match a with
  | ⟨0, _⟩ => show win1_3.index t (0 : Fin 2) * 64 + 1 * j.val = j.val; rw [e0]; omega
  | ⟨1, _⟩ => show win1_3.index t (1 : Fin 2) * 64 + 1 * q.val = q.val; rw [e1]; omega

/-- The aggregated-messages weight block at any point is the whole array. -/
theorem node_block_wb (c : Dev nD) (t : Fin cfg1.N) (j : Fin 64) (q : Fin 64) :
    (iblk1 V c 4 t : Vec Ideal S64x64 .f32) (ix2 j q) = (V c main_v26 : S64x64.Idx → EReal) (ix2 j q) := by
  obtain ⟨-, -, -, -, -, -, -, -, e0, e1, -⟩ := node_index_facts t
  unfold iblk1
  rw [View.read_apply]
  show V c main_v26 _ = V c main_v26 _
  congr 1
  funext a
  apply Fin.ext
  match a with
  | ⟨0, _⟩ => show win1_4.index t (0 : Fin 2) * 64 + 1 * j.val = j.val; rw [e0]; omega
  | ⟨1, _⟩ => show win1_4.index t (1 : Fin 2) * 64 + 1 * q.val = q.val; rw [e1]; omega

/-- The graph-rows weight block at any point is the whole array. -/
theorem node_block_wc (c : Dev nD) (t : Fin cfg1.N) (j : Fin 32) (q : Fin 64) :
    (iblk1 V c 5 t : Vec Ideal S32x64 .f32) (ix2 j q) = (V c main_v27 : S32x64.Idx → EReal) (ix2 j q) := by
  obtain ⟨-, -, -, -, -, -, -, -, -, -, e0, e1, -⟩ := node_index_facts t
  unfold iblk1
  rw [View.read_apply]
  show V c main_v27 _ = V c main_v27 _
  congr 1
  funext a
  apply Fin.ext
  match a with
  | ⟨0, _⟩ => show win1_5.index t (0 : Fin 2) * 32 + 1 * j.val = j.val; rw [e0]; omega
  | ⟨1, _⟩ => show win1_5.index t (1 : Fin 2) * 64 + 1 * q.val = q.val; rw [e1]; omega

/-- The bias-row block at any point is the whole array. -/
theorem node_block_b (c : Dev nD) (t : Fin cfg1.N) (q : Fin 64) :
    (iblk1 V c 6 t : Vec Ideal S1x64 .f32) (ix2 (0 : Fin 1) q) = (V c main_v28 : S1x64.Idx → EReal) (ix2 (0 : Fin 1) q) := by
  obtain ⟨-, -, -, -, -, -, -, -, -, -, -, -, e0, e1, -⟩ := node_index_facts t
  unfold iblk1
  rw [View.read_apply]
  show V c main_v28 _ = V c main_v28 _
  congr 1
  funext a
  apply Fin.ext
  match a with
  | ⟨0, _⟩ => show win1_6.index t (0 : Fin 2) * 1 + 1 * 0 = 0; rw [e0]
  | ⟨1, _⟩ => show win1_6.index t (1 : Fin 2) * 64 + 1 * q.val = q.val; rw [e1]; omega

/-- The node layer of the arrays the region is entered with. -/
abbrev nodeArray (c : Dev nD) : S50000x64.Idx → EReal :=
  tripleRelu zeroWord (V c main_arg0 : S50000x64.Idx → EReal) (V c main_v24 : S50000x64.Idx → EReal)
    (V c main_v17 : S50000x32.Idx → EReal) (V c main_v25 : S64x64.Idx → EReal) (V c main_v26 : S64x64.Idx → EReal)
    (V c main_v27 : S32x64.Idx → EReal) (V c main_v28 : S1x64.Idx → EReal)

/-- What point t writes back is block t of the node layer of the whole arrays. -/
theorem node_flushed (c : Dev nD) (t : Fin cfg1.N) :
    (dat1 V c).flushed 7 t = ((cfg1.win 7).blk t).view.read (Elt Ideal) (nodeArray V c) := by
  show (cfg1.win 7).cut (grid1.coords t) ((dat1 V c).after 7 t) = _
  rw [after1_7]
  unfold out1_7
  rw [View.canon_unit_zero zero_offsets']
  simp only [View.ld_unit_zero (S := S5000x64) zero_offsets', View.ld_unit_zero (S := S5000x32) zero_offsets',
    View.ld_unit_zero (S := S64x64) zero_offsets', View.ld_unit_zero (S := S32x64) zero_offsets',
    View.ld_unit_zero (S := S1x64) zero_offsets']
  obtain ⟨-, -, -, -, -, -, -, -, -, -, -, -, -, -, e0, e1⟩ := node_index_facts t
  have hN : t.val < 10 := by have := t.isLt; have h10 : cfg1.N = 10 := N_1; omega
  funext y
  obtain ⟨p, q, rfl⟩ : ∃ (p : Fin 5000) (q : Fin 64), y = ix2 p q := ⟨y 0, y 1, eq_ix2 y⟩
  have hrow : t.val * 5000 + p.val < 50000 := by have := p.isLt; omega
  have hemb : ((cfg1.win 7).blk t).view.emb (ix2 p q) = (ix2 (⟨t.val * 5000 + p.val, hrow⟩ : Fin 50000) q : S50000x64.Idx) := by
    funext a
    apply Fin.ext
    match a with
    | ⟨0, _⟩ => show win1_7.index t (0 : Fin 2) * 5000 + 1 * p.val = t.val * 5000 + p.val; rw [e0]; omega
    | ⟨1, _⟩ => show win1_7.index t (1 : Fin 2) * 64 + 1 * q.val = q.val; rw [e1]; omega
  show k1_pay1 (F := Ideal) (iblk1 V c 0 t) (iblk1 V c 1 t) (iblk1 V c 2 t) (iblk1 V c 3 t) (iblk1 V c 4 t) (iblk1 V c 5 t) (iblk1 V c 6 t) (ix2 p q)
    = nodeArray V c (((cfg1.win 7).blk t).view.emb (ix2 p q))
  rw [hemb]
  refine (node_payload_apply _ _ _ _ _ _ _ p q).trans ?_
  show max _ zeroWord = max _ zeroWord
  refine congrArg (max · zeroWord) ?_
  exact tripleAt_congr (fun j => node_rows_x V c t p _ rfl j) (fun j => node_rows_g V c t p _ rfl j)
    (fun j => node_rows_u V c t p _ rfl j)
    (fun j => node_block_wa V c t j q) (fun j => node_block_wb V c t j q) (fun j => node_block_wc V c t j q)
    (node_block_b V c t q)

/-- An index of the output array is in point t's block iff each coordinate is in the block's range on its axis. -/
theorem node_mem_blk (t : Fin cfg1.N) (i : S50000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v29).slice (win1_7.rect t)).set ↔ _
  rw [View.set_slice_whole, Rect.mem_set_unit]
  exact Iff.rfl

/-- Every index of the output array is in some point's block: row r in point r / 5000's. -/
theorem node_cover (i : S50000x64.Idx) : ∃ t : Fin cfg1.N, (cfg1.win 7).flush t = true ∧ i ∈ ((cfg1.win 7).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  obtain ⟨-, -, -, -, -, -, -, -, -, -, -, -, -, -, e0, e1⟩ := node_index_facts t
  have ht : t.val = (i 0).val / 5000 := rfl
  refine ⟨t, flush1_7 t, ?_⟩
  rw [node_mem_blk]
  intro a
  match a with
  | ⟨0, _⟩ => show win1_7.index t (0 : Fin 2) * 5000 ≤ (i 0).val ∧ (i 0).val < win1_7.index t (0 : Fin 2) * 5000 + 5000; rw [e0, ht]; omega
  | ⟨1, _⟩ => show win1_7.index t (1 : Fin 2) * 64 ≤ (i 1).val ∧ (i 1).val < win1_7.index t (1 : Fin 2) * 64 + 64; rw [e1]; omega

/-- After the region its output array is the node layer of the arrays it was entered with. -/
theorem node_array (c : Dev nD) : (dat1 V c).arrAt 7 cfg1.N = nodeArray V c :=
  (dat1 V c).arrAt_eq_of_cover 7 (nodeArray V c) (fun t _ => node_flushed V c t) node_cover

end Cert.KernelIdeal.Hand

end
-- ==== Proof.KernelValue.lean ====
/-
  The idealized kernel program's result array after its run is the network of the argument arrays.

  The run's fold (the module of the run) leaves the result at the second region's output array. That is the node layer
  of the arrays the second region is entered with (the module of the second region): the node features as launched, the
  scatter-add of the first region's output array, the graph rows the first stretch of host operations looked up, and the
  slices and the reshape the second stretch made of the second weight matrix and bias. The first region's output array
  is the edge layer of the arrays IT is entered with (the module of the first region): the gathered rows, the slices
  and the reshape of the first stretch, the edge attributes as launched. Each entry array is read back through the
  host stretches to the launch memory, one operation at a time.
-/
import proofs.«129833_j44573170598878_1_alg».proof.Proof.KernelRun
import proofs.«129833_j44573170598878_1_alg».proof.Proof.EdgeRegion
import proofs.«129833_j44573170598878_1_alg».proof.Proof.NodeRegion
import proofs.«129833_j44573170598878_1_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Idealize.ShloMosaic.StableHlo
open Cert.LibSplitLayers

variable (m : (ℓ : Loc nD τ sig) → Buf (Elt Ideal) ℓ) (ρ : Dev nD → PrngReg)

/-! ## What the first region is entered with -/

theorem entry0_src (c : Dev nD) : V1 m ρ c main_v10
    = srcRows (m ((c.tc : Thread nD τ).loc main_arg0)) (m ((c.tc : Thread nD τ).loc main_arg1)) := by
  show StableHlo.after hostOps0 (W0 m ρ c) (Proc.devRef .tc main_v10) = _
  dsimp only [hostOps0]
  after_results
  rfl

theorem entry0_attr (c : Dev nD) : V1 m ρ c main_arg2 = m ((c.tc : Thread nD τ).loc main_arg2) := by
  show StableHlo.after hostOps0 (W0 m ρ c) (Proc.devRef .tc main_arg2) = _
  dsimp only [hostOps0]
  after_results

theorem entry0_wa (c : Dev nD) : V1 m ρ c main_v18
    = extractStridedSlice S64x64 ![0, 0] (m ((c.tc : Thread nD τ).loc main_arg5)) slices_S96x64_S64x64_0_0 := by
  show StableHlo.after hostOps0 (W0 m ρ c) (Proc.devRef .tc main_v18) = _
  dsimp only [hostOps0]
  after_results

theorem entry0_wb (c : Dev nD) : V1 m ρ c main_v19
    = extractStridedSlice S32x64 ![64, 0] (m ((c.tc : Thread nD τ).loc main_arg5)) slices_S96x64_S32x64_64_0 := by
  show StableHlo.after hostOps0 (W0 m ρ c) (Proc.devRef .tc main_v19) = _
  dsimp only [hostOps0]
  after_results

theorem entry0_bias (c : Dev nD) : V1 m ρ c main_v20
    = shapeCast S1x64 (m ((c.tc : Thread nD τ).loc main_arg6)) shapeCasts_S64_S1x64 := by
  show StableHlo.after hostOps0 (W0 m ρ c) (Proc.devRef .tc main_v20) = _
  dsimp only [hostOps0]
  after_results
  rfl

/-- The first region's output array after its run: the edge messages. -/
theorem messages_array (c : Dev nD) : (dat0 (V1 m ρ) c).arrAt 5 cfg0.N
    = messages (m ((c.tc : Thread nD τ).loc main_arg0)) (m ((c.tc : Thread nD τ).loc main_arg1))
        (m ((c.tc : Thread nD τ).loc main_arg2)) (m ((c.tc : Thread nD τ).loc main_arg5)) (m ((c.tc : Thread nD τ).loc main_arg6)) := by
  refine (edge_array (V1 m ρ) c).trans ?_
  unfold messages
  show pairRelu zeroWord (V1 m ρ c main_v10) (V1 m ρ c main_arg2) (V1 m ρ c main_v18) (V1 m ρ c main_v19) (V1 m ρ c main_v20) = _
  rw [entry0_src, entry0_attr, entry0_wa, entry0_wb, entry0_bias]

/-! ## What the second region is entered with -/

/-- A buffer no operation of the second stretch writes and the first region does not own holds, at the second region's
    entry, what the first stretch left. -/
theorem entry1_x (c : Dev nD) : V3 m ρ c main_arg0 = m ((c.tc : Thread nD τ).loc main_arg0) := by
  show StableHlo.after hostOps1 (W2 m ρ c) (Proc.devRef .tc main_arg0) = _
  dsimp only [hostOps1]
  after_results
  rw [W2_of_ne m ρ c main_arg0 (by decide)]
  show StableHlo.after hostOps0 (W0 m ρ c) (Proc.devRef .tc main_arg0) = _
  dsimp only [hostOps0]
  after_results

theorem entry1_graph (c : Dev nD) : V3 m ρ c main_v17
    = graphRows (m ((c.tc : Thread nD τ).loc main_arg3)) (m ((c.tc : Thread nD τ).loc main_arg4)) := by
  show StableHlo.after hostOps1 (W2 m ρ c) (Proc.devRef .tc main_v17) = _
  dsimp only [hostOps1]
  after_results
  rw [W2_of_ne m ρ c main_v17 (by decide)]
  show StableHlo.after hostOps0 (W0 m ρ c) (Proc.devRef .tc main_v17) = _
  dsimp only [hostOps0]
  after_results
  rfl

/-- The second weight matrix as the second stretch reads it: as launched. -/
theorem mid_w2 (c : Dev nD) : W2 m ρ c (Proc.devRef .tc main_arg7) = m ((c.tc : Thread nD τ).loc main_arg7) := by
  rw [W2_of_ne m ρ c main_arg7 (by decide)]
  show StableHlo.after hostOps0 (W0 m ρ c) (Proc.devRef .tc main_arg7) = _
  dsimp only [hostOps0]
  after_results

theorem mid_b2 (c : Dev nD) : W2 m ρ c (Proc.devRef .tc main_arg8) = m ((c.tc : Thread nD τ).loc main_arg8) := by
  rw [W2_of_ne m ρ c main_arg8 (by decide)]
  show StableHlo.after hostOps0 (W0 m ρ c) (Proc.devRef .tc main_arg8) = _
  dsimp only [hostOps0]
  after_results

/-- The destination indices as the second stretch reads them: row 0 of the edge index array as launched. -/
theorem mid_dest (c : Dev nD) : W2 m ρ c (Proc.devRef .tc main_v1)
    = shapeCast _ (extractStridedSlice S1x800000 ![0, 0] (m ((c.tc : Thread nD τ).loc main_arg1)) slices_S2x800000_S1x800000_0_0) shapeCasts_S1x800000_S800000 := by
  rw [W2_of_ne m ρ c main_v1 (by decide)]
  show StableHlo.after hostOps0 (W0 m ρ c) (Proc.devRef .tc main_v1) = _
  dsimp only [hostOps0]
  after_results
  rfl

theorem entry1_wa (c : Dev nD) : V3 m ρ c main_v25
    = extractStridedSlice S64x64 ![0, 0] (m ((c.tc : Thread nD τ).loc main_arg7)) slices_S160x64_S64x64_0_0 := by
  show StableHlo.after hostOps1 (W2 m ρ c) (Proc.devRef .tc main_v25) = _
  dsimp only [hostOps1]
  after_results
  rw [mid_w2]

theorem entry1_wb (c : Dev nD) : V3 m ρ c main_v26
    = extractStridedSlice S64x64 ![64, 0] (m ((c.tc : Thread nD τ).loc main_arg7)) slices_S160x64_S64x64_64_0 := by
  show StableHlo.after hostOps1 (W2 m ρ c) (Proc.devRef .tc main_v26) = _
  dsimp only [hostOps1]
  after_results
  rw [mid_w2]

theorem entry1_wc (c : Dev nD) : V3 m ρ c main_v27
    = extractStridedSlice S32x64 ![128, 0] (m ((c.tc : Thread nD τ).loc main_arg7)) slices_S160x64_S32x64_128_0 := by
  show StableHlo.after hostOps1 (W2 m ρ c) (Proc.devRef .tc main_v27) = _
  dsimp only [hostOps1]
  after_results
  rw [mid_w2]

theorem entry1_bias (c : Dev nD) : V3 m ρ c main_v28
    = shapeCast S1x64 (m ((c.tc : Thread nD τ).loc main_arg8)) shapeCasts_S64_S1x64 := by
  show StableHlo.after hostOps1 (W2 m ρ c) (Proc.devRef .tc main_v28) = _
  dsimp only [hostOps1]
  after_results
  rw [mid_b2]
  rfl

/-- The aggregated messages: the scatter-add of the first region's output array at the destination indices. -/
theorem entry1_agg (c : Dev nD) : V3 m ρ c main_v24
    = aggregate (m ((c.tc : Thread nD τ).loc main_arg1))
        (messages (m ((c.tc : Thread nD τ).loc main_arg0)) (m ((c.tc : Thread nD τ).loc main_arg1))
          (m ((c.tc : Thread nD τ).loc main_arg2)) (m ((c.tc : Thread nD τ).loc main_arg5)) (m ((c.tc : Thread nD τ).loc main_arg6))) := by
  show StableHlo.after hostOps1 (W2 m ρ c) (Proc.devRef .tc main_v24) = _
  dsimp only [hostOps1]
  after_results
  rw [mid_dest, show W2 m ρ c (Proc.devRef .tc main_v21) = (dat0 (V1 m ρ) c).arrAt 5 cfg0.N from W2_arr m ρ c 5, messages_array]
  rfl

/-! ## The result -/

/-- The second region's output array after its run is the network of the launch memory's argument arrays. -/
theorem network_array (c : Dev nD) : (dat1 (V3 m ρ) c).arrAt 7 cfg1.N
    = network (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  refine (node_array (V3 m ρ) c).trans ?_
  unfold network
  show tripleRelu zeroWord (V3 m ρ c main_arg0) (V3 m ρ c main_v24) (V3 m ρ c main_v17) (V3 m ρ c main_v25) (V3 m ρ c main_v26)
    (V3 m ρ c main_v27) (V3 m ρ c main_v28) = _
  rw [entry1_x, entry1_agg, entry1_graph, entry1_wa, entry1_wb, entry1_wc, entry1_bias]

/-- The run, read: the result array at the network of the arguments, the arguments unchanged. -/
theorem run : θ_run defs (onTc (τ := τ) (main (F := Ideal))) ⟨m, fun _ => 0, ρ⟩ (fun r => ∀ c : Dev nD,
      r.2.mem ((c.tc : Thread nD τ).loc main_v29)
        = network (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(result_at m ρ r h c).trans (network_array m ρ c), args_kept m ρ r h c⟩)
    (run_all m ρ)

end Cert.KernelIdeal.Hand

end
-- ==== Proof.RefValue.lean ====
/-
  The idealized reference's result is the network of its argument arrays.

  The reference joins each edge's source-node row and attribute row along the columns and takes one product with the
  whole first weight matrix, adds the bias spread over the rows, rectifies; scatter-adds the messages; joins each node's
  feature row, aggregated row and graph row and takes one product with the whole second weight matrix, adds the bias,
  rectifies. A product over joined columns is the sum of the products over each part's columns with the matching block
  of weight rows (the general lemmas on split layers), the bias spread as a row is the bias reshaped to a row, and the
  row look-ups and the scatter-add are the network's own, operation for operation.
-/
import proofs.«129833_j44573170598878_1_alg».proof.Proof.Gen.ReferenceIdeal.Read
import proofs.«129833_j44573170598878_1_alg».proof.Proof.Spec
import proofs.«129833_j44573170598878_1_alg».proof.Proof.LibPlainRecord

noncomputable section

namespace Cert.ReferenceIdeal.Hand

open Cert.ReferenceIdeal Cert.ReferenceIdeal.Read
open Idealize.ShloMosaic Idealize.ShloMosaic.ValueIdx
open Cert.LibMatRows Cert.LibPlainRecord Cert.LibDenseLayers Cert.LibSplitLayers
open Cert.KernelIdeal.Hand (zeroWord srcRows graphRows aggregate messages network)

variable [Cert.KernelIdeal.Facts] [Cert.ReferenceIdeal.Facts]

/-! ## The two products are plain matrix products -/

theorem rows_edge : RowsTimesMat dot_S800000x96_S96x64_S800000x64_1_0_0_1_n_n :=
  rowsTimesMat_of_lists _ rfl rfl rfl rfl rfl rfl
theorem rows_node : RowsTimesMat dot_S50000x160_S160x64_S50000x64_1_0_0_1_n_n :=
  rowsTimesMat_of_lists _ rfl rfl rfl rfl rfl rfl

/-! ## The shared host operations -/

/-- The reference looks the source rows up as the network does. -/
theorem src_eq (x0 : (⟨S50000x64, .f32⟩ : BufTy).Contents (Elt Ideal)) (x1 : (⟨S2x800000, .i32⟩ : BufTy).Contents (Elt Ideal)) :
    val_main_v10 (F := Ideal) x0 x1 = srcRows x0 x1 := rfl

/-- The reference looks the graph rows up as the network does. -/
theorem graph_eq (x3 : (⟨S256x32, .f32⟩ : BufTy).Contents (Elt Ideal)) (x4 : (⟨S50000, .i32⟩ : BufTy).Contents (Elt Ideal)) :
    val_main_v26 (F := Ideal) x3 x4 = graphRows x3 x4 := rfl

/-- The rectifiers' threshold, spread over an array and read at an entry, is the zero word. -/
theorem zero0_apply (i : S800000x64.Idx) : val_main_call0_v0 (F := Ideal) i = zeroWord :=
  (val_main_call0_v0_apply i).trans (val_main_call0_cst_apply _)
theorem zero1_apply (i : S50000x64.Idx) : val_main_call1_v0 (F := Ideal) i = zeroWord :=
  (val_main_call1_v0_apply i).trans (val_main_call1_cst_apply _)

/-! ## The edge messages -/

theorem messages_eq (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x5 : (⟨S96x64, .f32⟩ : BufTy).Contents (Elt Ideal))
    (x6 : (⟨S64, .f32⟩ : BufTy).Contents (Elt Ideal)) :
    val_main_v16 (F := Ideal) x0 x1 x2 x5 x6 = messages x0 x1 x2 x5 x6 := by
  funext i
  obtain ⟨p, q, rfl⟩ : ∃ (p : Fin 800000) (q : Fin 64), i = ix2 p q := ⟨i 0, i 1, eq_ix2 i⟩
  unfold messages
  show max (val_main_v15 (F := Ideal) x0 x1 x2 x5 x6 (ix2 p q)) (val_main_call0_v0 (F := Ideal) (ix2 p q)) = max (pairAt _ _ _ _ _ p q) zeroWord
  rw [zero0_apply]
  refine congrArg (max · zeroWord) ?_
  unfold val_main_v15 val_main_v12 val_main_v11 val_main_v14
  refine (ref_dense2 (k1 := 64) (k2 := 32) (k := 96) rfl rows_edge (val_main_v10 (F := Ideal) x0 x1) x2 x5 (val_main_v13 (F := Ideal) x6)
    Facts₀.concatenates_S800000x64_S800000x32_S800000x96_d1 Facts₀.bcast_S1x64_S800000x64_0_1 p q).trans ?_
  refine (dense2At_eq_pairAt rfl _ _ x5 _ Cert.KernelIdeal.Facts₀.slices_S96x64_S64x64_0_0
    Cert.KernelIdeal.Facts₀.slices_S96x64_S32x64_64_0 p q).trans ?_
  refine pairAt_congr (fun j => ?_) (fun _ => rfl) (fun _ => rfl) (fun _ => rfl) ?_
  · rw [src_eq]
  · exact congrFun (bias_row_eq x6 Facts₀.bcast_S64_S1x64_1 Cert.KernelIdeal.Facts₀.shapeCasts_S64_S1x64) (ix2 (0 : Fin 1) q)

/-! ## The aggregated messages -/

theorem aggregate_eq (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x5 : (⟨S96x64, .f32⟩ : BufTy).Contents (Elt Ideal))
    (x6 : (⟨S64, .f32⟩ : BufTy).Contents (Elt Ideal)) :
    val_main_v19 (F := Ideal) x0 x1 x2 x5 x6 = aggregate x1 (messages x0 x1 x2 x5 x6) := by
  unfold val_main_v19
  rw [messages_eq]
  rfl

/-! ## The result -/

theorem network_eq (x0 : (⟨S50000x64, .f32⟩ : BufTy).Contents (Elt Ideal)) (x1 : (⟨S2x800000, .i32⟩ : BufTy).Contents (Elt Ideal))
    (x2 : (⟨S800000x32, .f32⟩ : BufTy).Contents (Elt Ideal)) (x3 : (⟨S256x32, .f32⟩ : BufTy).Contents (Elt Ideal))
    (x4 : (⟨S50000, .i32⟩ : BufTy).Contents (Elt Ideal)) (x5 : (⟨S96x64, .f32⟩ : BufTy).Contents (Elt Ideal))
    (x6 : (⟨S64, .f32⟩ : BufTy).Contents (Elt Ideal)) (x7 : (⟨S160x64, .f32⟩ : BufTy).Contents (Elt Ideal))
    (x8 : (⟨S64, .f32⟩ : BufTy).Contents (Elt Ideal)) :
    val_main_v32 (F := Ideal) x0 x1 x2 x3 x4 x5 x6 x7 x8 = network x0 x1 x2 x3 x4 x5 x6 x7 x8 := by
  funext i
  obtain ⟨p, q, rfl⟩ : ∃ (p : Fin 50000) (q : Fin 64), i = ix2 p q := ⟨i 0, i 1, eq_ix2 i⟩
  unfold network
  show max (val_main_v31 (F := Ideal) x0 x1 x2 x3 x4 x5 x6 x7 x8 (ix2 p q)) (val_main_call1_v0 (F := Ideal) (ix2 p q))
    = max (tripleAt _ _ _ _ _ _ _ p q) zeroWord
  rw [zero1_apply]
  refine congrArg (max · zeroWord) ?_
  unfold val_main_v31 val_main_v28 val_main_v27 val_main_v30
  refine (ref_triple (k1 := 64) (k2 := 64) (k3 := 32) (k := 160) rfl rows_node x0 (val_main_v19 (F := Ideal) x0 x1 x2 x5 x6)
    (val_main_v26 (F := Ideal) x3 x4) x7 (val_main_v29 (F := Ideal) x8)
    Facts₀.concatenates_S50000x64_S50000x64_S50000x32_S50000x160_d1 Facts₀.bcast_S1x64_S50000x64_0_1 128 rfl
    Cert.KernelIdeal.Facts₀.slices_S160x64_S64x64_0_0 Cert.KernelIdeal.Facts₀.slices_S160x64_S64x64_64_0
    Cert.KernelIdeal.Facts₀.slices_S160x64_S32x64_128_0 p q).trans ?_
  refine tripleAt_congr (fun _ => rfl) (fun j => ?_) (fun j => ?_) (fun _ => rfl) (fun _ => rfl) (fun _ => rfl) ?_
  · rw [aggregate_eq]
  · rw [graph_eq]
  · exact congrFun (bias_row_eq x8 Facts₀.bcast_S64_S1x64_1 Cert.KernelIdeal.Facts₀.shapeCasts_S64_S1x64) (ix2 (0 : Fin 1) q)

end Cert.ReferenceIdeal.Hand

end
-- ==== Proof.lean ====
/-
  The five claims about a two-layer message-passing network on a graph of 50000 nodes and 800000 edges.

  Both programs look up each edge's source-node feature row, compute a rectified dense layer of that row joined with the
  edge's attribute row, add the messages up at their destination nodes, and compute a rectified dense layer of each
  node's feature row joined with its aggregated message row and its graph's global row. The kernel program runs each
  dense layer as a pipelined region over row tiles, with the weight matrix cut into one block of rows per part of the
  joined row and one product per part; the reference joins the parts and takes one product. Over the extended reals the
  two agree entry by entry, because a finite sum over the joined columns is the sum of the sums over the parts' columns
  (no finiteness of any entry is used: the precondition is never opened), and because rounding the operands to bf16
  is the identity there.

  The kernel programs' frames are the generated ones; the reference's frame is its generated run with the result
  dropped; the idealization rewrote nothing, so `preserves` is `True`; `algebraic` pairs the idealized kernel
  program's run, read as the network of the argument arrays, with the reference's run, read as the same network.
-/
import proofs.«129833_j44573170598878_1_alg».proof.Defs
import proofs.«129833_j44573170598878_1_alg».proof.Proof.Gen.Kernel
import proofs.«129833_j44573170598878_1_alg».proof.Proof.Gen.Kernel.Skeleton
import proofs.«129833_j44573170598878_1_alg».proof.Proof.Gen.Kernel.Launch
import proofs.«129833_j44573170598878_1_alg».proof.Proof.Gen.Kernel.Points
import proofs.«129833_j44573170598878_1_alg».proof.Proof.Gen.Kernel.Frame
import proofs.«129833_j44573170598878_1_alg».proof.Proof.Gen.KernelIdeal
import proofs.«129833_j44573170598878_1_alg».proof.Proof.Gen.KernelIdeal.Skeleton
import proofs.«129833_j44573170598878_1_alg».proof.Proof.Gen.KernelIdeal.Launch
import proofs.«129833_j44573170598878_1_alg».proof.Proof.Gen.KernelIdeal.Points
import proofs.«129833_j44573170598878_1_alg».proof.Proof.Gen.KernelIdeal.Frame
import proofs.«129833_j44573170598878_1_alg».proof.Proof.Gen.ReferenceIdeal
import proofs.«129833_j44573170598878_1_alg».proof.Proof.Gen.Pre_finite_inputs
import proofs.«129833_j44573170598878_1_alg».proof.Proof.Gen.ReferenceIdeal.Run
import proofs.«129833_j44573170598878_1_alg».proof.Proof.Gen.ReferenceIdeal.Read
import proofs.«129833_j44573170598878_1_alg».proof.Proof.KernelValue
import proofs.«129833_j44573170598878_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's generated run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal values the kernel program's result array ends at the network of the argument arrays, and so does the
    reference's, from memories that agree on the arguments. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.Hand.network_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
